-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x1 : Shape := ⟨2, ![800000, 1]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg6 : FVec F S256x256 .f32) (main_arg7 : FVec F S256 .f32) (main_arg8 : FVec F S256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_v33

def fn {F : FTy → Type} [FloatOps F] (main_arg0 : FVec F S50000x256 .f32) (main_arg1 : FVec F S800000x1 .f32) (main_arg2 : IVec S800000 32) (main_arg3 : IVec S800000 32) (main_arg4 : FVec F S256x256 .f32) (main_arg5 : FVec F S256 .f32) (main_arg6 : FVec F S256x256 .f32) (main_arg7 : FVec F S256 .f32) (main_arg8 : FVec F S256 .f32) (main_arg9 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S50000x256 : Shape := ⟨2, ![50000, 256]⟩
abbrev S800000x1 : Shape := ⟨2, ![800000, 1]⟩
abbrev S800000 : Shape := ⟨1, ![800000]⟩
abbrev S256x256 : Shape := ⟨2, ![256, 256]⟩
abbrev S256 : Shape := ⟨1, ![256]⟩
abbrev S_ : Shape := ⟨0, ![]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S2000x256 : Shape := ⟨2, ![2000, 256]⟩

abbrev nBuf : Space → Nat
  | .hbm => 84
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S_, .f32⟩
  | .hbm, ⟨43, _⟩ => ⟨S50000x256, .i1⟩
  | .hbm, ⟨44, _⟩ => ⟨S50000x256, .f32⟩
  | .hbm, ⟨45, _⟩ => ⟨S50000x256, .f32⟩
  | .hbm, ⟨46, _⟩ => ⟨S256x256, .f32⟩
  | .hbm, ⟨47, _⟩ => ⟨S256x256, .f32⟩
  | .hbm, ⟨48, _⟩ => ⟨S1x256, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S50000x256, .f32⟩
  | .hbm, ⟨53, _⟩ => ⟨S_, .f32⟩
  | .hbm, ⟨54, _⟩ => ⟨S256, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S_, .i32⟩
  | .hbm, ⟨59, _⟩ => ⟨S_, .f32⟩
  | .hbm, ⟨60, _⟩ => ⟨S256, .f32⟩
  | .hbm, ⟨61, _⟩ => ⟨S1x256, .f32⟩
  | .hbm, ⟨62, _⟩ => ⟨S_, .f32⟩
  | .hbm, ⟨63, _⟩ => ⟨S1x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S1x256, .f32⟩
  | .hbm, ⟨82, _⟩ => ⟨S1x256, .f32⟩
  | .hbm, ⟨83, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000x1 : Shape := ⟨2, ![800000, 1]⟩
abbrev S800000 : Shape := ⟨1, ![800000]⟩
abbrev S256x256 : Shape := ⟨2, ![256, 256]⟩
abbrev S256 : Shape := ⟨1, ![256]⟩
abbrev S_ : Shape := ⟨0, ![]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x256, .f32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x256, .f32⟩
  | .hbm, ⟨40, _⟩ => ⟨S50000x256, .f32⟩
  | .hbm, ⟨41, _⟩ => ⟨S_, .f32⟩
  | .hbm, ⟨42, _⟩ => ⟨S_, .f32⟩
  | .hbm, ⟨43, _⟩ => ⟨S50000x256, .i1⟩
  | .hbm, ⟨44, _⟩ => ⟨S50000x256, .f32⟩
  | .hbm, ⟨45, _⟩ => ⟨S50000x256, .f32⟩
  | .hbm, ⟨46, _⟩ => ⟨S256x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S256x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S_, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S_, .i32⟩
  | .hbm, ⟨68, _⟩ => ⟨S_, .f32⟩
  | .hbm, ⟨69, _⟩ => ⟨S256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S256, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S1x256, .f32⟩
  | .hbm, ⟨94, _⟩ => ⟨S50000x256, .f32⟩
  | .hbm, ⟨95, _⟩ => ⟨S50000x256, .f32⟩
  | .hbm, ⟨96, _⟩ => ⟨S_, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S1x256, .f32⟩
  | .hbm, ⟨101, _⟩ => ⟨S50000x256, .f32⟩
  | .hbm, ⟨102, _⟩ => ⟨S50000x256, .f32⟩
  | .hbm, ⟨103, _⟩ => ⟨S1x256, .f32⟩
  | .hbm, ⟨104, _⟩ => ⟨S50000x256, .f32⟩
  | .hbm, ⟨105, _⟩ => ⟨S50000x256, .f32⟩
  | .hbm, ⟨106, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call1_cst : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call2_cst : Ref sig .tc := ⟨.hbm, 59, rfl⟩
abbrev main_call2_v0 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_call3_cst : Ref sig .tc := ⟨.hbm, 68, rfl⟩
abbrev main_call3_v0 : Ref sig .tc := ⟨.hbm, 69, rfl⟩
abbrev main_call3_v1 : Ref sig .tc := ⟨.hbm, 70, rfl⟩
abbrev main_call3_cst_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_cst_1 : Ref sig .tc := ⟨.hbm, 78, rfl⟩
abbrev main_call3_v8 : Ref sig .tc := ⟨.hbm, 79, rfl⟩
abbrev main_call3_cst_2 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_cst_3 : Ref sig .tc := ⟨.hbm, 84, rfl⟩
abbrev main_call3_v12 : Ref sig .tc := ⟨.hbm, 85, rfl⟩
abbrev main_call3_cst_4 : Ref sig .tc := ⟨.hbm, 86, rfl⟩
abbrev main_call3_call0_v0 : Ref sig .tc := ⟨.hbm, 87, rfl⟩
abbrev main_call3_call0_v1 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_9 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The idealized kernel's run with its result named.

  @main is eight segments: three stretches of host operations, the first kernel launch (the two-layer perceptron on
  blocks of 2000 rows), three more stretches (the column mean and variance of its result), and the second
  kernel launch (normalisation and residual, again on blocks of 2000 rows).  Every weakly fair execution terminates
  with each unscoped buffer at the contents the last segment boundary names; read at the result buffer this is the
  second launch's output array as its write-backs leave it, and read at an argument it is the launch memory.
-/
import proofs.«159847_j58042188038247_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the contents of
    the last segment boundary and every argument array as launched. -/
theorem run_named : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KValue

end
-- ==== Proof.KTerms.lean ====
/-
  The host-side chains of the kernel's program, as pure functions of the contents they read, for any float values.

  Before the first kernel launch the host forms the edge-weighted mean of the neighbours' features (a gather of the
  source rows, a product with the edge weights, a sum into the destination rows, a division by the number of
  arriving edges where there is one).  Between the two launches it takes each feature's mean and variance over the
  50000 rows of the first launch's output.  Each function is spelled with the operations of the program's
  statements, in their order.
-/
import proofs.«159847_j58042188038247_2_alg».proof.KernelIdeal
import proofs.«159847_j58042188038247_2_alg».proof.Proof.Gen.KernelIdeal

noncomputable section

namespace Cert.KernelIdeal.KTerms

open Idealize.ShloMosaic Idealize.SL.Sem
open Cert.KernelIdeal Cert.KernelIdeal.Facts₀ Cert.KernelIdeal.Facts

variable {F : FTy → Type} [FloatOps F] [Facts]

/-- The scalar zero. -/
def zero : (⟨S_, .f32⟩ : BufTy).Contents (Elt F) := constant (F := F) S_ .f32 0x00000000#32

/-- The scalar fifty thousand, the number of nodes. -/
def nNodes : (⟨S_, .f32⟩ : BufTy).Contents (Elt F) := constant (F := F) S_ .f32 0x47435000#32

/-- Each edge's source node: a negative index is wrapped once by the number of nodes. -/
def srcIdx (a2 : (⟨S800000, .i32⟩ : BufTy).Contents (Elt F)) : (⟨S800000x1, .i32⟩ : BufTy).Contents (Elt F) :=
  broadcastInDim S800000x1 ![0] bcast_S800000_S800000x1_0
    (select (cmpi .slt a2 (broadcastInDim S800000 ![] bcast_S_S800000 (constantI S_ 32 0#32)))
      (addi a2 (broadcastInDim S800000 ![] bcast_S_S800000 (constantI S_ 32 50000#32)))
      a2)

/-- Each edge's destination node, as a column of indices. -/
def dstIdx (a3 : (⟨S800000, .i32⟩ : BufTy).Contents (Elt F)) : (⟨S800000x1, .i32⟩ : BufTy).Contents (Elt F) :=
  broadcastInDim S800000x1 ![0] bcast_S800000_S800000x1_0 a3

/-- Each edge's message: its source node's features times the edge's weight. -/
def msg (a0 : (⟨S50000x256, .f32⟩ : BufTy).Contents (Elt F)) (a1 : (⟨S800000x1, .f32⟩ : BufTy).Contents (Elt F))
    (a2 : (⟨S800000, .i32⟩ : BufTy).Contents (Elt F)) : (⟨S800000x256, .f32⟩ : BufTy).Contents (Elt F) :=
  mulf (Host.gather gather_S50000x256_S800000x1_S800000x256_1_0_n_n_0_1_1256 a0 (srcIdx (F := F) a2))
    (broadcastInDim S800000x256 ![0, 1] bcast_S800000x1_S800000x256_0_1 a1)

/-- The sum of the messages arriving at each node. -/
def agg (a0 : (⟨S50000x256, .f32⟩ : BufTy).Contents (Elt F)) (a1 : (⟨S800000x1, .f32⟩ : BufTy).Contents (Elt F))
    (a2 a3 : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (zero (F := F))) (dstIdx (F := F) a3) (msg a0 a1 a2)

/-- The number of edges arriving at each node: a one added per edge. -/
def deg (a3 : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (zero (F := F))) (dstIdx (F := F) a3)
    (broadcastInDim S800000 ![] bcast_S_S800000 (constant (F := F) S_ .f32 0x3F800000#32))

/-- The edge-weighted mean of the neighbours' features: the summed messages over the number of arriving edges
    (at least one), and zero at a node no edge arrives at. -/
def hn (a0 : (⟨S50000x256, .f32⟩ : BufTy).Contents (Elt F)) (a1 : (⟨S800000x1, .f32⟩ : BufTy).Contents (Elt F))
    (a2 a3 : (⟨S800000, .i32⟩ : BufTy).Contents (Elt F)) : (⟨S50000x256, .f32⟩ : BufTy).Contents (Elt F) :=
  select
    (broadcastInDim S50000x256 ![0, 1] bcast_S50000x1_S50000x256_0_1
      (cmpf .ogt (broadcastInDim S50000x1 ![0] bcast_S50000_S50000x1_0 (deg (F := F) a3))
        (broadcastInDim S50000x1 ![] bcast_S_S50000x1 (zero (F := F)))))
    (Host.divf (agg a0 a1 a2 a3)
      (broadcastInDim S50000x256 ![0, 1] bcast_S50000x1_S50000x256_0_1
        (broadcastInDim S50000x1 ![0] bcast_S50000_S50000x1_0
          (maximumf (deg (F := F) a3)
            (broadcastInDim S50000 ![] bcast_S_S50000 (constant (F := F) S_ .f32 0x3F800000#32))))))
    (broadcastInDim S50000x256 ![] bcast_S_S50000x256 (id (zero (F := F))))

/-- Each feature's mean over the nodes: its sum over the rows divided by their number. -/
def mean (x : (⟨S50000x256, .f32⟩ : BufTy).Contents (Elt F)) : (⟨S256, .f32⟩ : BufTy).Contents (Elt F) :=
  Host.divf (Host.reduceAdd x (zero (F := F)) reducesTo_S50000x256_S256_d0 h_S_)
    (broadcastInDim S256 ![] bcast_S_S256 (nNodes (F := F)))

/-- The number of nodes less the correction, the correction being the integer zero made a float. -/
def varDenom : (⟨S_, .f32⟩ : BufTy).Contents (Elt F) :=
  subf (nNodes (F := F)) (sitofp .f32 (constantI S_ 32 0#32))

/-- The squared deviation of each entry from its feature's mean over the nodes (the mean taken as a row). -/
def sqDev (x : (⟨S50000x256, .f32⟩ : BufTy).Contents (Elt F)) : (⟨S50000x256, .f32⟩ : BufTy).Contents (Elt F) :=
  mulf
    (subf x (broadcastInDim S50000x256 ![0, 1] bcast_S1x256_S50000x256_0_1
      (Host.divf (broadcastInDim S1x256 ![1] bcast_S256_S1x256_1
          (Host.reduceAdd x (zero (F := F)) reducesTo_S50000x256_S256_d0 h_S_))
        (broadcastInDim S1x256 ![] bcast_S_S1x256 (nNodes (F := F))))))
    (subf x (broadcastInDim S50000x256 ![0, 1] bcast_S1x256_S50000x256_0_1
      (Host.divf (broadcastInDim S1x256 ![1] bcast_S256_S1x256_1
          (Host.reduceAdd x (zero (F := F)) reducesTo_S50000x256_S256_d0 h_S_))
        (broadcastInDim S1x256 ![] bcast_S_S1x256 (nNodes (F := F))))))

/-- Each feature's variance over the nodes: the summed squared deviations over the corrected count, where that
    count is positive, and the quiet not-a-number otherwise. -/
def var (x : (⟨S50000x256, .f32⟩ : BufTy).Contents (Elt F)) : (⟨S256, .f32⟩ : BufTy).Contents (Elt F) :=
  select
    (broadcastInDim S256 ![] bcast_S_S256 (cmpf .ogt (varDenom (F := F)) (zero (F := F))))
    (Host.divf (Host.reduceAdd (sqDev x) (zero (F := F)) reducesTo_S50000x256_S256_d0 h_S_)
      (broadcastInDim S256 ![] bcast_S_S256 (varDenom (F := F))))
    (broadcastInDim S256 ![] bcast_S_S256 (id (constant (F := F) S_ .f32 0x7FC00000#32)))

end Cert.KernelIdeal.KTerms

end
-- ==== Proof.KHost.lean ====
/-
  The contents the two kernel launches find, read through the host operations that precede them.

  The host operations are a fold over the launch memory; at the buffers a launch reads the fold is: the edge-weighted
  mean of the neighbours' features; the two weight matrices transposed; the bias, scale and shift vectors laid out as
  one-row arrays; and, after the first launch, the column mean and variance of its output laid out as one-row arrays.
  A buffer that no operation of a stretch writes keeps its contents.  Everything here holds for any float values:
  the gathers, sums and products are never opened.
-/
import proofs.«159847_j58042188038247_2_alg».proof.Proof.Gen.KernelIdeal.Frame
import proofs.«159847_j58042188038247_2_alg».proof.Proof.KTerms
import Idealize.ShloMosaic.Lib.StableHlo.Run

set_option maxRecDepth 16384

noncomputable section

namespace Cert.KernelIdeal.KHost

open Idealize.ShloMosaic Idealize.ShloMosaic.TcCoe Idealize.SL.Sem
open Idealize.ShloMosaic.StableHlo
open Cert.KernelIdeal Cert.KernelIdeal.Gen Cert.KernelIdeal.Facts₀ Cert.KernelIdeal.Facts

variable {F : FTy → Type} [FloatOps F]

/-! ## Before the first launch -/

attribute [local irreducible] Host.gather Host.scatterAdd Host.reduceAdd in
/-- The feature array the launches read is the edge-weighted mean of the neighbours' features. -/
theorem head_v24 (W : Valuation τ sig (Elt F)) :
    after hostOps0_2 (after hostOps0_1 (after hostOps0 W)) (Proc.devRef .tc main_v24)
      = KTerms.hn (W (Proc.devRef .tc main_arg0)) (W (Proc.devRef .tc main_arg1)) (W (Proc.devRef .tc main_arg2)) (W (Proc.devRef .tc main_arg3)) := by
  after_results_simp <;> rfl

attribute [local irreducible] Host.gather Host.scatterAdd Host.reduceAdd in
/-- The first weight matrix, transposed. -/
theorem head_v25 (W : Valuation τ sig (Elt F)) :
    after hostOps0_2 (after hostOps0_1 (after hostOps0 W)) (Proc.devRef .tc main_v25)
      = transpose S256x256 [1, 0] (W (Proc.devRef .tc main_arg4)) Facts₀.transposes_S256x256_S256x256_1_0 := by
  after_results_simp <;> rfl

attribute [local irreducible] Host.gather Host.scatterAdd Host.reduceAdd in
/-- The second weight matrix, transposed. -/
theorem head_v26 (W : Valuation τ sig (Elt F)) :
    after hostOps0_2 (after hostOps0_1 (after hostOps0 W)) (Proc.devRef .tc main_v26)
      = transpose S256x256 [1, 0] (W (Proc.devRef .tc main_arg6)) Facts₀.transposes_S256x256_S256x256_1_0 := by
  after_results_simp <;> rfl

attribute [local irreducible] Host.gather Host.scatterAdd Host.reduceAdd in
/-- The first bias as a one-row array. -/
theorem head_v27 (W : Valuation τ sig (Elt F)) :
    after hostOps0_2 (after hostOps0_1 (after hostOps0 W)) (Proc.devRef .tc main_v27)
      = shapeCast S1x256 (W (Proc.devRef .tc main_arg5)) Facts₀.shapeCasts_S256_S1x256 := by
  after_results_simp <;> rfl

attribute [local irreducible] Host.gather Host.scatterAdd Host.reduceAdd in
/-- The second bias as a one-row array. -/
theorem head_v28 (W : Valuation τ sig (Elt F)) :
    after hostOps0_2 (after hostOps0_1 (after hostOps0 W)) (Proc.devRef .tc main_v28)
      = shapeCast S1x256 (W (Proc.devRef .tc main_arg7)) Facts₀.shapeCasts_S256_S1x256 := by
  after_results_simp <;> rfl

attribute [local irreducible] Host.gather Host.scatterAdd Host.reduceAdd in
/-- The scale as a one-row array. -/
theorem head_v29 (W : Valuation τ sig (Elt F)) :
    after hostOps0_2 (after hostOps0_1 (after hostOps0 W)) (Proc.devRef .tc main_v29)
      = shapeCast S1x256 (W (Proc.devRef .tc main_arg8)) Facts₀.shapeCasts_S256_S1x256 := by
  after_results_simp <;> rfl

attribute [local irreducible] Host.gather Host.scatterAdd Host.reduceAdd in
/-- The shift as a one-row array. -/
theorem head_v30 (W : Valuation τ sig (Elt F)) :
    after hostOps0_2 (after hostOps0_1 (after hostOps0 W)) (Proc.devRef .tc main_v30)
      = shapeCast S1x256 (W (Proc.devRef .tc main_arg9)) Facts₀.shapeCasts_S256_S1x256 := by
  after_results_simp <;> rfl

/-! ## Between the launches -/

attribute [local irreducible] Host.gather Host.scatterAdd Host.reduceAdd in
/-- The row of column means of the first launch's output. -/
theorem mid_v36 (W : Valuation τ sig (Elt F)) :
    after hostOps1_2 (after hostOps1_1 (after hostOps1 W)) (Proc.devRef .tc main_v36)
      = shapeCast S1x256 (KTerms.mean (W (Proc.devRef .tc main_v31))) Facts₀.shapeCasts_S256_S1x256 := by
  after_results_simp <;> rfl

attribute [local irreducible] Host.gather Host.scatterAdd Host.reduceAdd in
/-- The row of column variances of the first launch's output. -/
theorem mid_v37 (W : Valuation τ sig (Elt F)) :
    after hostOps1_2 (after hostOps1_1 (after hostOps1 W)) (Proc.devRef .tc main_v37)
      = shapeCast S1x256 (KTerms.var (W (Proc.devRef .tc main_v31))) Facts₀.shapeCasts_S256_S1x256 := by
  after_results_simp <;> rfl

attribute [local irreducible] Host.gather Host.scatterAdd Host.reduceAdd in
/-- The stretch between the launches writes none of the four other arrays the second launch reads. -/
theorem mid_kept (W : Valuation τ sig (Elt F)) :
    after hostOps1_2 (after hostOps1_1 (after hostOps1 W)) (Proc.devRef .tc main_v31) = W (Proc.devRef .tc main_v31)
    ∧ after hostOps1_2 (after hostOps1_1 (after hostOps1 W)) (Proc.devRef .tc main_v24) = W (Proc.devRef .tc main_v24)
    ∧ after hostOps1_2 (after hostOps1_1 (after hostOps1 W)) (Proc.devRef .tc main_v29) = W (Proc.devRef .tc main_v29)
    ∧ after hostOps1_2 (after hostOps1_1 (after hostOps1 W)) (Proc.devRef .tc main_v30) = W (Proc.devRef .tc main_v30) := by
  refine ⟨?_, ?_, ?_, ?_⟩ <;> after_results_simp

end Cert.KernelIdeal.KHost

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«159847_j58042188038247_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibTwoLayerRows.lean ====
/-
  Two dense layers on a block of rows, at the ideal values.

  A perceptron  z ↦ max(z·Wa + ba, 0)·Wb + bb  (optionally followed by a last max with a constant) applied to every
  row of an [N, K] array can be computed one block of R consecutive rows at a time: the block's rows of the input
  (here a sum of two arrays) meet the whole weight matrices and one-row biases, and the matrix products run on
  operands first narrowed to another float format — the identity on the extended reals.  Each theorem says: the
  block computation read at an entry y equals the whole-array host computation read where y sits in the array.
  A block of rows is described by an embedding of its entries that shifts the row by an offset and keeps the column.
-/
import Idealize.ShloMosaic.PureOps.Ideal.Laws
import Idealize.ShloMosaic.Lib.ValueIdx
import Idealize.ShloMosaic.Lib.Pipeline.Value
import proofs.«159847_j58042188038247_2_alg».proof.Proof.LibRowBlocks

noncomputable section

namespace Cert.Lib.TwoLayerRows

open Idealize.ShloMosaic Idealize.ShloMosaic.ValueIdx Cert.Lib.PlainDot Cert.Bridge
open scoped BigOperators

variable {R N K H C : Nat}

/-- An embedding of the entries of an [R, C] block into an [N, C] array as rows o … o + R − 1, columns kept. -/
structure RowEmb {C : Nat} (e : (⟨2, ![R, C]⟩ : Shape).Idx → (⟨2, ![N, C]⟩ : Shape).Idx) (o : Nat) : Prop where
  row : ∀ j, (e j 0).val = o + (j 0).val
  col : ∀ j, (e j 1).val = (j 1).val

/-- Entry (r, k) of the left block sits in the array's row of the output entry (r, c), column k. -/
theorem RowEmb.rowIdx_eq {eK : (⟨2, ![R, K]⟩ : Shape).Idx → (⟨2, ![N, K]⟩ : Shape).Idx}
    {eC : (⟨2, ![R, C]⟩ : Shape).Idx → (⟨2, ![N, C]⟩ : Shape).Idx} {o : Nat}
    (hK : RowEmb eK o) (hC : RowEmb eC o) (y : (⟨2, ![R, C]⟩ : Shape).Idx) (k : Fin K) :
    eK (rowIdx y k) = rowIdx (eC y) k :=
  funext fun a => Fin.ext (by
    match a with
    | ⟨0, _⟩ => exact (hK.row _).trans (hC.row y).symm
    | ⟨1, _⟩ => exact hK.col _)

/-- The right factor is whole: entry (k, c) of it is read at the column of the output entry. -/
theorem RowEmb.colIdx_eq {eC : (⟨2, ![R, C]⟩ : Shape).Idx → (⟨2, ![N, C]⟩ : Shape).Idx} {o : Nat}
    (hC : RowEmb eC o) (y : (⟨2, ![R, C]⟩ : Shape).Idx) (k : Fin K) :
    (colIdx y k : (⟨2, ![K, C]⟩ : Shape).Idx) = colIdx (eC y) k :=
  funext fun a => Fin.ext (by
    match a with
    | ⟨0, _⟩ => rfl
    | ⟨1, _⟩ => exact (hC.col y).symm)

/-- The one-row bias is whole: it is read at the column of the output entry. -/
theorem RowEmb.rowZero_eq {eC : (⟨2, ![R, C]⟩ : Shape).Idx → (⟨2, ![N, C]⟩ : Shape).Idx} {o : Nat}
    (hC : RowEmb eC o) (y : (⟨2, ![R, C]⟩ : Shape).Idx) :
    (rowZero y : (⟨2, ![1, C]⟩ : Shape).Idx) = rowZero (eC y) :=
  funext fun a => Fin.ext (by
    match a with
    | ⟨0, _⟩ => rfl
    | ⟨1, _⟩ => exact (hC.col y).symm)

/-- THE FIRST LAYER of a row block: the two input blocks added, narrowed, multiplied by the narrowed weights into
    zeros, the bias row stretched over the rows, maximum with a constant — against the host's whole arrays. -/
theorem first_layer_block {ψ : FTy} (hψ : ψ.bits < FTy.f32.bits)
    (d : DotDims ⟨2, ![R, K]⟩ ⟨2, ![K, H]⟩ ⟨2, ![R, H]⟩) (hd : d = DotDims.plain R K H)
    (D : DotDims ⟨2, ![N, K]⟩ ⟨2, ![K, H]⟩ ⟨2, ![N, H]⟩) (hD : D = DotDims.plain N K H)
    (prec prec' : Option ContractPrecision)
    (X A : FVec Ideal ⟨2, ![N, K]⟩ .f32) (Wa : FVec Ideal ⟨2, ![K, H]⟩ .f32) (Ba : FVec Ideal ⟨2, ![1, H]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx) (o : Nat)
    (hK : RowEmb eK o) (hH : RowEmb eH o)
    (hx0 : ∀ j, x0 j = X (eK j)) (hx1 : ∀ j, x1 j = A (eK j))
    (hb : (⟨2, ![1, H]⟩ : Shape).Broadcasts ⟨2, ![R, H]⟩)
    (hB : (⟨2, ![1, H]⟩ : Shape).BroadcastsInDim ⟨2, ![N, H]⟩ ![0, 1])
    (hZ : (⟨0, ![]⟩ : Shape).BroadcastsInDim ⟨2, ![N, H]⟩ ![]) (z : BitVec 32)
    (y : (⟨2, ![R, H]⟩ : Shape).Idx) :
    maximumf (addf (matmul d prec (truncf ψ (addf x0 x1) hψ) (truncf ψ Wa hψ) (constant ⟨2, ![R, H]⟩ .f32 0x00000000#32))
          (broadcastTo ⟨2, ![R, H]⟩ Ba hb))
        (broadcast ⟨2, ![R, H]⟩ (Scalar.ofBits (F := Ideal) .f32 z)) y
      = maximumf (addf (Host.dotGeneral D prec' (addf X A) Wa) (broadcastInDim ⟨2, ![N, H]⟩ ![0, 1] hB Ba))
        (broadcastInDim ⟨2, ![N, H]⟩ ![] hZ (constant (F := Ideal) ⟨0, ![]⟩ .f32 z)) (eH y) :=
  embed_block ψ ψ d hd D hD prec prec' (addf X A) Wa Ba (truncf ψ (addf x0 x1) hψ) (truncf ψ Wa hψ) Ba
    eK id id eH
    (fun j => by rw [truncf_apply, addf_apply, addf_apply, hx0, hx1])
    (fun j => truncf_apply Wa hψ j) (fun _ => rfl)
    (fun y k => hK.rowIdx_eq hH y k) (fun y k => hH.colIdx_eq y k) (fun y => hH.rowZero_eq y)
    hb hB hZ z y

/-- BOTH LAYERS of a row block, ending in a maximum with the constant. -/
theorem two_layers_max_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1])
    (hZB : (⟨0, ![]⟩ : Shape).BroadcastsInDim ⟨2, ![N, C]⟩ ![]) (z : BitVec 32)
    (y : (⟨2, ![R, C]⟩ : Shape).Idx) :
    maximumf (addf (matmul dB prec
            (truncf ψ (maximumf (addf (matmul dA prec (truncf ψ (addf x0 x1) hψ) (truncf ψ Wa hψ) (constant ⟨2, ![R, H]⟩ .f32 0x00000000#32))
                (broadcastTo ⟨2, ![R, H]⟩ Ba hbA)) (broadcast ⟨2, ![R, H]⟩ (Scalar.ofBits (F := Ideal) .f32 z))) hψ)
            (truncf ψ Wb hψ) (constant ⟨2, ![R, C]⟩ .f32 0x00000000#32))
          (broadcastTo ⟨2, ![R, C]⟩ Bb hbB))
        (broadcast ⟨2, ![R, C]⟩ (Scalar.ofBits (F := Ideal) .f32 z)) y
      = maximumf (addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb))
        (broadcastInDim ⟨2, ![N, C]⟩ ![] hZB (constant (F := Ideal) ⟨0, ![]⟩ .f32 z)) (eC y) :=
  embed_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB hZB z y

/-- BOTH LAYERS of a row block, the second one without a final maximum. -/
theorem two_layers_block {ψ : FTy} (hψ : ψ.bits < FTy.f32.bits)
    (dA : DotDims ⟨2, ![R, K]⟩ ⟨2, ![K, H]⟩ ⟨2, ![R, H]⟩) (hdA : dA = DotDims.plain R K H)
    (DA : DotDims ⟨2, ![N, K]⟩ ⟨2, ![K, H]⟩ ⟨2, ![N, H]⟩) (hDA : DA = DotDims.plain N K H)
    (dB : DotDims ⟨2, ![R, H]⟩ ⟨2, ![H, C]⟩ ⟨2, ![R, C]⟩) (hdB : dB = DotDims.plain R H C)
    (DB : DotDims ⟨2, ![N, H]⟩ ⟨2, ![H, C]⟩ ⟨2, ![N, C]⟩) (hDB : DB = DotDims.plain N H C)
    (prec prec' : Option ContractPrecision)
    (X A : FVec Ideal ⟨2, ![N, K]⟩ .f32) (Wa : FVec Ideal ⟨2, ![K, H]⟩ .f32) (Ba : FVec Ideal ⟨2, ![1, H]⟩ .f32)
    (Wb : FVec Ideal ⟨2, ![H, C]⟩ .f32) (Bb : FVec Ideal ⟨2, ![1, C]⟩ .f32)
    (x0 x1 : FVec Ideal ⟨2, ![R, K]⟩ .f32)
    (eK : (⟨2, ![R, K]⟩ : Shape).Idx → (⟨2, ![N, K]⟩ : Shape).Idx)
    (eH : (⟨2, ![R, H]⟩ : Shape).Idx → (⟨2, ![N, H]⟩ : Shape).Idx)
    (eC : (⟨2, ![R, C]⟩ : Shape).Idx → (⟨2, ![N, C]⟩ : Shape).Idx) (o : Nat)
    (hK : RowEmb eK o) (hH : RowEmb eH o) (hC : RowEmb eC o)
    (hx0 : ∀ j, x0 j = X (eK j)) (hx1 : ∀ j, x1 j = A (eK j))
    (hbA : (⟨2, ![1, H]⟩ : Shape).Broadcasts ⟨2, ![R, H]⟩)
    (hBA : (⟨2, ![1, H]⟩ : Shape).BroadcastsInDim ⟨2, ![N, H]⟩ ![0, 1])
    (hZA : (⟨0, ![]⟩ : Shape).BroadcastsInDim ⟨2, ![N, H]⟩ ![])
    (hbB : (⟨2, ![1, C]⟩ : Shape).Broadcasts ⟨2, ![R, C]⟩)
    (hBB : (⟨2, ![1, C]⟩ : Shape).BroadcastsInDim ⟨2, ![N, C]⟩ ![0, 1]) (z : BitVec 32)
    (y : (⟨2, ![R, C]⟩ : Shape).Idx) :
    addf (matmul dB prec
          (truncf ψ (maximumf (addf (matmul dA prec (truncf ψ (addf x0 x1) hψ) (truncf ψ Wa hψ) (constant ⟨2, ![R, H]⟩ .f32 0x00000000#32))
              (broadcastTo ⟨2, ![R, H]⟩ Ba hbA)) (broadcast ⟨2, ![R, H]⟩ (Scalar.ofBits (F := Ideal) .f32 z))) hψ)
          (truncf ψ Wb hψ) (constant ⟨2, ![R, C]⟩ .f32 0x00000000#32))
        (broadcastTo ⟨2, ![R, C]⟩ Bb hbB) y
      = addf (Host.dotGeneral DB prec'
            (maximumf (addf (Host.dotGeneral DA prec' (addf X A) Wa) (broadcastInDim ⟨2, ![N, H]⟩ ![0, 1] hBA Ba))
              (broadcastInDim ⟨2, ![N, H]⟩ ![] hZA (constant (F := Ideal) ⟨0, ![]⟩ .f32 z)))
            Wb) (broadcastInDim ⟨2, ![N, C]⟩ ![0, 1] hBB Bb) (eC y) :=
  output_block ψ ψ dB hdB DB hDB prec prec' _ Wb Bb _ (truncf ψ Wb hψ) Bb
    eH id id eC
    (fun j => (truncf_apply _ hψ j).trans
      (first_layer_block hψ dA hdA DA hDA prec prec' X A Wa Ba x0 x1 eK eH o hK hH hx0 hx1 hbA hBA hZA z j))
    (fun j => truncf_apply Wb hψ j) (fun _ => rfl)
    (fun y k => hH.rowIdx_eq hC y k) (fun y k => hC.colIdx_eq y k) (fun y => hC.rowZero_eq y)
    hbB hBB y

end Cert.Lib.TwoLayerRows

end
-- ==== Proof.KRegion0.lean ====
/-
  The first kernel launch: two rectified dense layers, 2000 rows at a time.

  Grid point t reads rows 2000·t … 2000·t + 1999 of the feature array X and the whole of two 256 x 256 weight
  matrices Wa, Wb and two one-row biases Ba, Bb, and writes the same rows of

      max (max (X · Wa + Ba, 0) · Wb + Bb, 0).

  A row of a matrix product depends only on that row of the left factor, so each written block is the matching row
  block of the whole-array expression; the narrowing of the matrix unit's operands to a shorter float format is the
  identity on the extended reals.  The 25 blocks tile the 50000 rows, hence the launch's output array is the
  whole-array expression.  Nothing is assumed of the entries: no law used here needs finiteness.
-/
import proofs.«159847_j58042188038247_2_alg».proof.Proof.Gen.KernelIdeal.Frame
import proofs.«159847_j58042188038247_2_alg».proof.Proof.LibTwoLayerRows
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Bridge Cert.Lib.TwoLayerRows Cert.Lib.PlainDot

/-- Two rectified dense layers of a whole [50000, 256] array, as host operations: product with the first weights,
    the first bias row stretched down the rows, maximum with zero; the same again with the second pair. -/
def mlpHost (D : DotDims S50000x256 S256x256 S50000x256)
    (hB : S1x256.BroadcastsInDim S50000x256 ![0, 1]) (hZ : S_.BroadcastsInDim S50000x256 ![])
    (X : FVec Ideal S50000x256 .f32) (Wa : FVec Ideal S256x256 .f32) (Ba : FVec Ideal S1x256 .f32)
    (Wb : FVec Ideal S256x256 .f32) (Bb : FVec Ideal S1x256 .f32) : FVec Ideal S50000x256 .f32 :=
  maximumf (addf (Host.dotGeneral D none
      (maximumf (addf (Host.dotGeneral D none X Wa) (broadcastInDim S50000x256 ![0, 1] hB Ba))
        (broadcastInDim S50000x256 ![] hZ (constant (F := Ideal) S_ .f32 0x00000000#32)))
      Wb) (broadcastInDim S50000x256 ![0, 1] hB Bb))
    (broadcastInDim S50000x256 ![] hZ (constant (F := Ideal) S_ .f32 0x00000000#32))

/-- The body's stored value at entry y of a row block is the whole-array expression at the entry of the array where
    y sits: the first layer of the block is the block of the first layer, and so the second. -/
theorem pay0_apply (D : DotDims S50000x256 S256x256 S50000x256) (hD : D = DotDims.plain 50000 256 256)
    (hB : S1x256.BroadcastsInDim S50000x256 ![0, 1]) (hZ : S_.BroadcastsInDim S50000x256 ![])
    (X : FVec Ideal S50000x256 .f32) (Wa : FVec Ideal S256x256 .f32) (Ba : FVec Ideal S1x256 .f32)
    (Wb : FVec Ideal S256x256 .f32) (Bb : FVec Ideal S1x256 .f32)
    (x0 : Vec Ideal S2000x256 .f32) (e : S2000x256.Idx → S50000x256.Idx) (o : Nat) (he : RowEmb e o)
    (hx0 : ∀ j, x0 j = X (e j)) (y : S2000x256.Idx) :
    k0_pay1 x0 Wa Ba Wb Bb y = mlpHost D hB hZ X Wa Ba Wb Bb (e y) := by
  have hd : dot_S2000x256_S256x256_S2000x256_1_0_0_1_n_n = DotDims.plain 2000 256 256 := rfl
  unfold k0_pay1 mlpHost
  simp only [shapeCast_self]
  refine embed_block .bf16 .bf16 _ hd D hD none none _ Wb Bb _ _ Bb e id id e ?_ (fun j => truncf_apply (ψ := .bf16) Wb bitsLt_bf16_f32 j) (fun _ => rfl)
    (fun y k => he.rowIdx_eq he y k) (fun y k => he.colIdx_eq y k) (fun y => he.rowZero_eq y)
    broadcasts_S1x256_S2000x256 hB hZ 0x00000000#32 y
  intro j
  refine (truncf_apply (ψ := .bf16) _ bitsLt_bf16_f32 j).trans ?_
  refine embed_block .bf16 .bf16 _ hd D hD none none X Wa Ba _ _ Ba e id id e ?_ (fun j => truncf_apply (ψ := .bf16) Wa bitsLt_bf16_f32 j) (fun _ => rfl)
    (fun y k => he.rowIdx_eq he y k) (fun y k => he.colIdx_eq y k) (fun y => he.rowZero_eq y)
    broadcasts_S1x256_S2000x256 hB hZ 0x00000000#32 j
  intro j
  exact (truncf_apply (ψ := .bf16) (φ := .f32) x0 bitsLt_bf16_f32 j).trans (hx0 j)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the row-blocked windows sit at block row t, column block 0; the
    weights and biases are whole. -/
theorem idx_facts0 : ∀ t : Fin cfg0.N,
    win0_0.index t (0 : Fin 2) = win0_5.index t (0 : Fin 2) ∧ win0_0.index t (1 : Fin 2) = 0
    ∧ win0_5.index t (1 : Fin 2) = 0 ∧ win0_5.index t (0 : Fin 2) ≤ 24
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every block row is some point's. -/
theorem idx_onto0 : ∀ q : Fin 25, ∃ t : Fin cfg0.N, win0_5.index t (0 : Fin 2) = q.val :=
  (by decide +kernel : ∀ q : Fin 25, ∃ t : Fin grid0.N, win0_5.index t (0 : Fin 2) = q.val)

/-- The first weight matrix's block is the whole matrix. -/
theorem iblk0_1 (c : Dev nD) (t : Fin cfg0.N) : iblk0 V c 1 t = V c main_v25 := by
  obtain ⟨-, -, -, -, e0, e1, -⟩ := idx_facts0 t
  funext j
  show V c main_v25 (((cfg0.win 1).blk t).view.emb j) = V c main_v25 j
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- The first bias row's block is the whole row. -/
theorem iblk0_2 (c : Dev nD) (t : Fin cfg0.N) : iblk0 V c 2 t = V c main_v27 := by
  obtain ⟨-, -, -, -, -, -, e0, e1, -⟩ := idx_facts0 t
  funext j
  show V c main_v27 (((cfg0.win 2).blk t).view.emb j) = V c main_v27 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 256 + 1 * (j 1).val = (j 1).val; omega

/-- The second weight matrix's block is the whole matrix. -/
theorem iblk0_3 (c : Dev nD) (t : Fin cfg0.N) : iblk0 V c 3 t = V c main_v26 := by
  obtain ⟨-, -, -, -, -, -, -, -, e0, e1, -⟩ := idx_facts0 t
  funext j
  show V c main_v26 (((cfg0.win 3).blk t).view.emb j) = V c main_v26 j
  refine congrArg _ (funext fun a => Fin.ext ?_)
  match a with
  | ⟨0, _⟩ => show win0_3.index t (0 : Fin 2) * 256 + 1 * (j 0).val = (j 0).val; omega
  | ⟨1, _⟩ => show win0_3.index t (1 : Fin 2) * 256 + 1 * (j 1).val = (j 1).val; omega

/-- The second bias row's block is the whole row. -/
theorem iblk0_4 (c : Dev nD) (t : Fin cfg0.N) : iblk0 V c 4 t = V c main_v28 := by
  obtain ⟨-, -, -, -, -, -, -, -, -, -, e0, e1⟩ := idx_facts0 t
  funext j
  show V c main_v28 (((cfg0.win 4).blk t).view.emb j) = V c main_v28 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 256 + 1 * (j 1).val = (j 1).val; omega

/-- The feature block at point t is the output block's rows of the feature array. -/
theorem iblk0_0 (c : Dev nD) (t : Fin cfg0.N) (j : S2000x256.Idx) :
    iblk0 V c 0 t j = V c main_v24 (((cfg0.win 5).blk t).view.emb j) := by
  obtain ⟨e0, e1, e2, -⟩ := idx_facts0 t
  show V c main_v24 (((cfg0.win 0).blk t).view.emb j) = V c main_v24 (((cfg0.win 5).blk t).view.emb j)
  refine congrArg _ (funext fun a => Fin.ext ?_)
  match a with
  | ⟨0, _⟩ => show win0_0.index t (0 : Fin 2) * 2000 + 1 * (j 0).val = win0_5.index t (0 : Fin 2) * 2000 + 1 * (j 0).val; omega
  | ⟨1, _⟩ => show win0_0.index t (1 : Fin 2) * 256 + 1 * (j 1).val = win0_5.index t (1 : Fin 2) * 256 + 1 * (j 1).val; omega

/-- The output block at point t is rows 2000·(block row) … of the array, columns kept. -/
theorem emb0_rows (t : Fin cfg0.N) :
    RowEmb (R := 2000) (N := 50000) (C := 256) (fun j => ((cfg0.win 5).blk t).view.emb j) (win0_5.index t (0 : Fin 2) * 2000) := by
  obtain ⟨-, -, e2, -⟩ := idx_facts0 t
  refine ⟨fun j => ?_, fun j => ?_⟩
  · show win0_5.index t (0 : Fin 2) * 2000 + 1 * (j 0).val = win0_5.index t (0 : Fin 2) * 2000 + (j 0).val; omega
  · show win0_5.index t (1 : Fin 2) * 256 + 1 * (j 1).val = (j 1).val; omega

/-- What point t writes back is block t of the whole-array expression of the arrays the launch finds. -/
theorem flushed0_eq (D : DotDims S50000x256 S256x256 S50000x256) (hD : D = DotDims.plain 50000 256 256)
    (hB : S1x256.BroadcastsInDim S50000x256 ![0, 1]) (hZ : S_.BroadcastsInDim S50000x256 ![]) (c : Dev nD) (t : Fin cfg0.N) :
    (dat0 V c).flushed 5 t = ((cfg0.win 5).blk t).view.read (Elt Ideal)
      (mlpHost D hB hZ (V c main_v24) (V c main_v25) (V c main_v27) (V c main_v26) (V c main_v28)) := by
  show (cfg0.win 5).cut (grid0.coords t) ((dat0 V c).after 5 t) = _
  rw [after0_5, iblk0_1, iblk0_2, iblk0_3, iblk0_4]
  unfold out0_5
  rw [View.canon_unit_zero hz]
  simp only [View.ld_unit_zero (S := S2000x256) hz, View.ld_unit_zero (S := S256x256) hz, View.ld_unit_zero (S := S1x256) hz]
  funext j
  exact pay0_apply D hD hB hZ (V c main_v24) (V c main_v25) (V c main_v27) (V c main_v26) (V c main_v28)
    (iblk0 V c 0 t) (fun j => ((cfg0.win 5).blk t).view.emb j) (win0_5.index t (0 : Fin 2) * 2000) (emb0_rows t)
    (iblk0_0 V c t) j

/-- An index of the array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v31).slice (win0_5.rect t)).set ↔ _
  rw [View.set_slice_whole, Rect.mem_set_unit]
  exact Iff.rfl

/-- Every entry of the array lies in the block of the point whose block row is its row divided by 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 2000, by omega⟩
  have ht' : win0_5.index t (0 : Fin 2) = (i 0).val / 2000 := ht
  obtain ⟨-, -, e2, -⟩ := idx_facts0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE FIRST LAUNCH'S OUTPUT ARRAY is the two rectified dense layers of the arrays the launch finds. -/
theorem final0 (D : DotDims S50000x256 S256x256 S50000x256) (hD : D = DotDims.plain 50000 256 256)
    (hB : S1x256.BroadcastsInDim S50000x256 ![0, 1]) (hZ : S_.BroadcastsInDim S50000x256 ![]) (c : Dev nD) :
    (dat0 V c).arrAt 5 cfg0.N
      = mlpHost D hB hZ (V c main_v24) (V c main_v25) (V c main_v27) (V c main_v26) (V c main_v28) :=
  (dat0 V c).arrAt_eq_of_cover 5 _ (fun t _ => flushed0_eq V D hD hB hZ c t) cover0

end Cert.KernelIdeal.KValue

end
-- ==== Proof.KRegion1.lean ====
/-
  The second kernel launch: normalisation and residual, 2000 rows at a time.

  Grid point t reads rows 2000·t … 2000·t + 1999 of the perceptron's output X and of the feature array H, and four
  whole one-row arrays Mu, Vr, Ga, Be (the column means and variances, the scale and the shift), and writes the same
  rows of

      (Ga · (X − Mu)) · rsqrt (Vr + ε) + Be + H,

  each row array read at the entry's column.  Every operation is entry by entry, so each written block is the
  matching row block of that one function of the whole arrays, and the 25 blocks tile the 50000 rows.
-/
import proofs.«159847_j58042188038247_2_alg».proof.Proof.Gen.KernelIdeal.Frame
import proofs.«159847_j58042188038247_2_alg».proof.Proof.LibTwoLayerRows
import Idealize.ShloMosaic.Lib.Pipeline.Value
import Idealize.ShloMosaic.Lib.ValueIdx
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.Bridge Cert.Lib.TwoLayerRows Cert.Lib.PlainDot

/-- The normalised, scaled and shifted entry plus the residual, the four row arrays read at the entry's column. -/
def normAt (X H : S50000x256.Idx → EReal) (Mu Vr Ga Be : S1x256.Idx → EReal) : S50000x256.Idx → EReal := fun i =>
  Ga (rowZero i) * (X i - Mu (rowZero i)) * Ideal.rsqrt (Vr (rowZero i) + Ideal.ofBits .f32 0x3727C5AC#32)
    + Be (rowZero i) + H i

/-- The body's stored value at entry y of a row block is that function at the entry of the array where y sits. -/
theorem pay1_apply (X H : FVec Ideal S50000x256 .f32) (Mu Vr Ga Be : FVec Ideal S1x256 .f32)
    (x0 x1 : Vec Ideal S2000x256 .f32) (e : S2000x256.Idx → S50000x256.Idx) (o : Nat) (he : RowEmb e o)
    (hx0 : ∀ j, x0 j = X (e j)) (hx1 : ∀ j, x1 j = H (e j)) (y : S2000x256.Idx) :
    k1_pay1 x0 x1 Vr Ga Mu Be y = normAt X H Mu Vr Ga Be (e y) := by
  unfold k1_pay1 normAt
  simp only [shapeCast_self]
  rw [addf_apply, addf_apply, mulf_apply, mulf_apply, subf_apply,
    stretchRow_apply, stretchRow_apply, stretchRow_apply, stretchRow_apply, hx0, hx1, he.rowZero_eq y]
  rfl

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 25 grid points: the row-blocked windows sit at block row t, column block 0; the
    four row arrays are whole. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_6.index t (1 : Fin 2) = 0 ∧ win1_6.index t (0 : Fin 2) ≤ 24
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every block row is some point's. -/
theorem idx_onto1 : ∀ q : Fin 25, ∃ t : Fin cfg1.N, win1_6.index t (0 : Fin 2) = q.val :=
  (by decide +kernel : ∀ q : Fin 25, ∃ t : Fin grid1.N, win1_6.index t (0 : Fin 2) = q.val)

/-- The row of means is read whole. -/
theorem iblk1_2 (c : Dev nD) (t : Fin cfg1.N) : iblk1 V c 2 t = V c main_v36 := by
  obtain ⟨-, -, -, -, -, -, e0, e1, -⟩ := idx_facts1 t
  funext j
  show V c main_v36 (((cfg1.win 2).blk t).view.emb j) = V c main_v36 j
  refine congrArg _ (funext fun a => Fin.ext ?_)
  match a with
  | ⟨0, _⟩ => show win1_2.index t (0 : Fin 2) * 1 + 1 * (j 0).val = (j 0).val; omega
  | ⟨1, _⟩ => show win1_2.index t (1 : Fin 2) * 256 + 1 * (j 1).val = (j 1).val; omega

/-- The row of variances is read whole. -/
theorem iblk1_3 (c : Dev nD) (t : Fin cfg1.N) : iblk1 V c 3 t = V c main_v37 := by
  obtain ⟨-, -, -, -, -, -, -, -, e0, e1, -⟩ := idx_facts1 t
  funext j
  show V c main_v37 (((cfg1.win 3).blk t).view.emb j) = V c main_v37 j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 256 + 1 * (j 1).val = (j 1).val; omega

/-- The scale row is read whole. -/
theorem iblk1_4 (c : Dev nD) (t : Fin cfg1.N) : iblk1 V c 4 t = V c main_v29 := by
  obtain ⟨-, -, -, -, -, -, -, -, -, -, e0, e1, -⟩ := idx_facts1 t
  funext j
  show V c main_v29 (((cfg1.win 4).blk t).view.emb j) = V c main_v29 j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 256 + 1 * (j 1).val = (j 1).val; omega

/-- The shift row is read whole. -/
theorem iblk1_5 (c : Dev nD) (t : Fin cfg1.N) : iblk1 V c 5 t = V c main_v30 := by
  obtain ⟨-, -, -, -, -, -, -, -, -, -, -, -, e0, e1⟩ := idx_facts1 t
  funext j
  show V c main_v30 (((cfg1.win 5).blk t).view.emb j) = V c main_v30 j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 256 + 1 * (j 1).val = (j 1).val; omega

/-- The perceptron-output block at point t is the output block's rows of that array. -/
theorem iblk1_0 (c : Dev nD) (t : Fin cfg1.N) (j : S2000x256.Idx) :
    iblk1 V c 0 t j = V c main_v31 (((cfg1.win 6).blk t).view.emb j) := by
  obtain ⟨e0, e1, -, -, e4, -⟩ := idx_facts1 t
  show V c main_v31 (((cfg1.win 0).blk t).view.emb j) = V c main_v31 (((cfg1.win 6).blk t).view.emb j)
  refine congrArg _ (funext fun a => Fin.ext ?_)
  match a with
  | ⟨0, _⟩ => show win1_0.index t (0 : Fin 2) * 2000 + 1 * (j 0).val = win1_6.index t (0 : Fin 2) * 2000 + 1 * (j 0).val; omega
  | ⟨1, _⟩ => show win1_0.index t (1 : Fin 2) * 256 + 1 * (j 1).val = win1_6.index t (1 : Fin 2) * 256 + 1 * (j 1).val; omega

/-- The feature block at point t is the output block's rows of the feature array. -/
theorem iblk1_1 (c : Dev nD) (t : Fin cfg1.N) (j : S2000x256.Idx) :
    iblk1 V c 1 t j = V c main_v24 (((cfg1.win 6).blk t).view.emb j) := by
  obtain ⟨-, -, e2, e3, e4, -⟩ := idx_facts1 t
  show V c main_v24 (((cfg1.win 1).blk t).view.emb j) = V c main_v24 (((cfg1.win 6).blk t).view.emb j)
  refine congrArg _ (funext fun a => Fin.ext ?_)
  match a with
  | ⟨0, _⟩ => show win1_1.index t (0 : Fin 2) * 2000 + 1 * (j 0).val = win1_6.index t (0 : Fin 2) * 2000 + 1 * (j 0).val; omega
  | ⟨1, _⟩ => show win1_1.index t (1 : Fin 2) * 256 + 1 * (j 1).val = win1_6.index t (1 : Fin 2) * 256 + 1 * (j 1).val; omega

/-- The output block at point t is rows 2000·(block row) … of the array, columns kept. -/
theorem emb1_rows (t : Fin cfg1.N) :
    RowEmb (R := 2000) (N := 50000) (C := 256) (fun j => ((cfg1.win 6).blk t).view.emb j) (win1_6.index t (0 : Fin 2) * 2000) := by
  obtain ⟨-, -, -, -, e4, -⟩ := idx_facts1 t
  refine ⟨fun j => ?_, fun j => ?_⟩
  · show win1_6.index t (0 : Fin 2) * 2000 + 1 * (j 0).val = win1_6.index t (0 : Fin 2) * 2000 + (j 0).val; omega
  · show win1_6.index t (1 : Fin 2) * 256 + 1 * (j 1).val = (j 1).val; omega

/-- What point t writes back is block t of the one function of the arrays the launch finds. -/
theorem flushed1_eq (c : Dev nD) (t : Fin cfg1.N) :
    (dat1 V c).flushed 6 t = ((cfg1.win 6).blk t).view.read (Elt Ideal)
      (normAt (V c main_v31) (V c main_v24) (V c main_v36) (V c main_v37) (V c main_v29) (V c main_v30)) := by
  show (cfg1.win 6).cut (grid1.coords t) ((dat1 V c).after 6 t) = _
  rw [after1_6, iblk1_2, iblk1_3, iblk1_4, iblk1_5]
  unfold out1_6
  rw [View.canon_unit_zero hz1]
  simp only [View.ld_unit_zero (S := S2000x256) hz1, View.ld_unit_zero (S := S1x256) hz1]
  funext j
  exact pay1_apply (V c main_v31) (V c main_v24) (V c main_v36) (V c main_v37) (V c main_v29) (V c main_v30)
    (iblk1 V c 0 t) (iblk1 V c 1 t) (fun j => ((cfg1.win 6).blk t).view.emb j) (win1_6.index t (0 : Fin 2) * 2000)
    (emb1_rows t) (iblk1_0 V c t) (iblk1_1 V c t) j

/-- An index of the array is in point t's block iff each coordinate is in the block's range on its axis. -/
theorem mem_blk1 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v38).slice (win1_6.rect t)).set ↔ _
  rw [View.set_slice_whole, Rect.mem_set_unit]
  exact Iff.rfl

/-- Every entry of the array lies in the block of the point whose block row is its row divided by 2000. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto1 ⟨(i 0).val / 2000, by omega⟩
  have ht' : win1_6.index t (0 : Fin 2) = (i 0).val / 2000 := ht
  obtain ⟨-, -, -, -, e4, -⟩ := idx_facts1 t
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- THE SECOND LAUNCH'S OUTPUT ARRAY is that one function of the arrays the launch finds. -/
theorem final1 (c : Dev nD) :
    (dat1 V c).arrAt 6 cfg1.N
      = normAt (V c main_v31) (V c main_v24) (V c main_v36) (V c main_v37) (V c main_v29) (V c main_v30) :=
  (dat1 V c).arrAt_eq_of_cover 6 _ (fun t _ => flushed1_eq V c t) cover1

end Cert.KernelIdeal.KValue

end
-- ==== Proof.RefTerms.lean ====
/-
  The reference's value as pure functions of its arguments' contents, for any float values `F`.

  The reference is one layer of a graph network over 50000 nodes with 256 features and 800000 edges:
  the edge-weighted mean of the neighbours' features, a two-layer perceptron, a normalisation of each
  feature over the nodes, and a residual sum. Each function below is spelled with the operations of the
  reference's statements, in their order.
-/
import proofs.«159847_j58042188038247_2_alg».proof.ReferenceIdeal
import proofs.«159847_j58042188038247_2_alg».proof.Proof.Gen.ReferenceIdeal

noncomputable section

namespace Cert.ReferenceIdeal.RefValue

open Idealize.ShloMosaic Idealize.SL.Sem
open Cert.ReferenceIdeal Cert.ReferenceIdeal.Facts₀ Cert.ReferenceIdeal.Facts

variable {F : FTy → Type} [FloatOps F] [Facts]

/-- The scalar zero. -/
def zero : (⟨S_, .f32⟩ : BufTy).Contents (Elt F) := constant (F := F) S_ .f32 0x00000000#32

/-- The scalar fifty thousand, the number of nodes. -/
def nNodes : (⟨S_, .f32⟩ : BufTy).Contents (Elt F) := constant (F := F) S_ .f32 0x47435000#32

/-- A vector of 256 features repeated along each of the 50000 rows. -/
def rows (v : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 v)

/-- Each edge's source node: a negative index is wrapped once by the number of nodes. -/
def srcIdx (a2 : (⟨S800000, .i32⟩ : BufTy).Contents (Elt F)) : (⟨S800000x1, .i32⟩ : BufTy).Contents (Elt F) :=
  broadcastInDim S800000x1 ![0] bcast_S800000_S800000x1_0
    (select (cmpi .slt a2 (broadcastInDim S800000 ![] bcast_S_S800000 (constantI S_ 32 0#32)))
      (addi a2 (broadcastInDim S800000 ![] bcast_S_S800000 (constantI S_ 32 50000#32)))
      a2)

/-- Each edge's destination node, as a column of indices. -/
def dstIdx (a3 : (⟨S800000, .i32⟩ : BufTy).Contents (Elt F)) : (⟨S800000x1, .i32⟩ : BufTy).Contents (Elt F) :=
  broadcastInDim S800000x1 ![0] bcast_S800000_S800000x1_0 a3

/-- Each edge's message: its source node's features times the edge's weight. -/
def msg (a0 : (⟨S50000x256, .f32⟩ : BufTy).Contents (Elt F)) (a1 : (⟨S800000x1, .f32⟩ : BufTy).Contents (Elt F))
    (a2 : (⟨S800000, .i32⟩ : BufTy).Contents (Elt F)) : (⟨S800000x256, .f32⟩ : BufTy).Contents (Elt F) :=
  mulf (Host.gather gather_S50000x256_S800000x1_S800000x256_1_0_n_n_0_1_1256 a0 (srcIdx (F := F) a2))
    (broadcastInDim S800000x256 ![0, 1] bcast_S800000x1_S800000x256_0_1 a1)

/-- The sum of the messages arriving at each node. -/
def agg (a0 : (⟨S50000x256, .f32⟩ : BufTy).Contents (Elt F)) (a1 : (⟨S800000x1, .f32⟩ : BufTy).Contents (Elt F))
    (a2 a3 : (⟨S800000, .i32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (zero (F := F))) (dstIdx (F := F) a3) (msg a0 a1 a2)

/-- The number of edges arriving at each node: a one added per edge. -/
def deg (a3 : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (zero (F := F))) (dstIdx (F := F) a3)
    (broadcastInDim S800000 ![] bcast_S_S800000 (constant (F := F) S_ .f32 0x3F800000#32))

/-- The edge-weighted mean of the neighbours' features: the summed messages over the number of arriving edges
    (at least one), and zero at a node no edge arrives at. -/
def hn (a0 : (⟨S50000x256, .f32⟩ : BufTy).Contents (Elt F)) (a1 : (⟨S800000x1, .f32⟩ : BufTy).Contents (Elt F))
    (a2 a3 : (⟨S800000, .i32⟩ : BufTy).Contents (Elt F)) : (⟨S50000x256, .f32⟩ : BufTy).Contents (Elt F) :=
  select
    (broadcastInDim S50000x256 ![0, 1] bcast_S50000x1_S50000x256_0_1
      (cmpf .ogt (broadcastInDim S50000x1 ![0] bcast_S50000_S50000x1_0 (deg (F := F) a3))
        (broadcastInDim S50000x1 ![] bcast_S_S50000x1 (zero (F := F)))))
    (Host.divf (agg a0 a1 a2 a3)
      (broadcastInDim S50000x256 ![0, 1] bcast_S50000x1_S50000x256_0_1
        (broadcastInDim S50000x1 ![0] bcast_S50000_S50000x1_0
          (maximumf (deg (F := F) a3)
            (broadcastInDim S50000 ![] bcast_S_S50000 (constant (F := F) S_ .f32 0x3F800000#32))))))
    (broadcastInDim S50000x256 ![] bcast_S_S50000x256 (id (zero (F := F))))

/-- The positive part: the maximum with zero. -/
def relu (x : (⟨S50000x256, .f32⟩ : BufTy).Contents (Elt F)) : (⟨S50000x256, .f32⟩ : BufTy).Contents (Elt F) :=
  maximumf x (broadcastInDim S50000x256 ![] bcast_S_S50000x256 (zero (F := F)))

/-- One dense layer: the product with the transposed weights plus the bias along each row. -/
def dense (h : (⟨S50000x256, .f32⟩ : BufTy).Contents (Elt F)) (W : (⟨S256x256, .f32⟩ : BufTy).Contents (Elt F))
    (b : (⟨S256, .f32⟩ : BufTy).Contents (Elt F)) : (⟨S50000x256, .f32⟩ : BufTy).Contents (Elt F) :=
  addf (Host.dotGeneral dot_S50000x256_S256x256_S50000x256_1_0_0_1_n_n none h
      (transpose S256x256 [1, 0] W transposes_S256x256_S256x256_1_0))
    (rows b)

/-- The two-layer perceptron: the positive part after each dense layer. -/
def mlp (h : (⟨S50000x256, .f32⟩ : BufTy).Contents (Elt F)) (W1 : (⟨S256x256, .f32⟩ : BufTy).Contents (Elt F))
    (b1 : (⟨S256, .f32⟩ : BufTy).Contents (Elt F)) (W2 : (⟨S256x256, .f32⟩ : BufTy).Contents (Elt F))
    (b2 : (⟨S256, .f32⟩ : BufTy).Contents (Elt F)) : (⟨S50000x256, .f32⟩ : BufTy).Contents (Elt F) :=
  relu (dense (relu (dense h W1 b1)) W2 b2)

/-- Each feature's mean over the nodes: its sum over the rows divided by their number. -/
def mean (x : (⟨S50000x256, .f32⟩ : BufTy).Contents (Elt F)) : (⟨S256, .f32⟩ : BufTy).Contents (Elt F) :=
  Host.divf (Host.reduceAdd x (zero (F := F)) reducesTo_S50000x256_S256_d0 h_S_)
    (broadcastInDim S256 ![] bcast_S_S256 (nNodes (F := F)))

/-- The number of nodes less the correction, the correction being the integer zero made a float. -/
def varDenom : (⟨S_, .f32⟩ : BufTy).Contents (Elt F) :=
  subf (nNodes (F := F)) (sitofp .f32 (constantI S_ 32 0#32))

/-- The squared deviation of each entry from its feature's mean over the nodes (the mean taken as a row). -/
def sqDev (x : (⟨S50000x256, .f32⟩ : BufTy).Contents (Elt F)) : (⟨S50000x256, .f32⟩ : BufTy).Contents (Elt F) :=
  mulf
    (subf x (broadcastInDim S50000x256 ![0, 1] bcast_S1x256_S50000x256_0_1
      (Host.divf (broadcastInDim S1x256 ![1] bcast_S256_S1x256_1
          (Host.reduceAdd x (zero (F := F)) reducesTo_S50000x256_S256_d0 h_S_))
        (broadcastInDim S1x256 ![] bcast_S_S1x256 (nNodes (F := F))))))
    (subf x (broadcastInDim S50000x256 ![0, 1] bcast_S1x256_S50000x256_0_1
      (Host.divf (broadcastInDim S1x256 ![1] bcast_S256_S1x256_1
          (Host.reduceAdd x (zero (F := F)) reducesTo_S50000x256_S256_d0 h_S_))
        (broadcastInDim S1x256 ![] bcast_S_S1x256 (nNodes (F := F))))))

/-- Each feature's variance over the nodes: the summed squared deviations over the corrected count, where that
    count is positive, and the quiet not-a-number otherwise. -/
def var (x : (⟨S50000x256, .f32⟩ : BufTy).Contents (Elt F)) : (⟨S256, .f32⟩ : BufTy).Contents (Elt F) :=
  select
    (broadcastInDim S256 ![] bcast_S_S256 (cmpf .ogt (varDenom (F := F)) (zero (F := F))))
    (Host.divf (Host.reduceAdd (sqDev x) (zero (F := F)) reducesTo_S50000x256_S256_d0 h_S_)
      (broadcastInDim S256 ![] bcast_S_S256 (varDenom (F := F))))
    (broadcastInDim S256 ![] bcast_S_S256 (id (constant (F := F) S_ .f32 0x7FC00000#32)))

/-- The normalised features, scaled and shifted, plus the residual: `((gamma * (x - mu)) * rsqrt (vr + eps) + beta) + h`,
    the vectors repeated along the rows. -/
def normResid (x h : (⟨S50000x256, .f32⟩ : BufTy).Contents (Elt F)) (mu vr gamma beta : (⟨S256, .f32⟩ : BufTy).Contents (Elt F)) :
    (⟨S50000x256, .f32⟩ : BufTy).Contents (Elt F) :=
  addf
    (addf
      (mulf (mulf (rows gamma) (subf x (rows mu)))
        (rows (Host.rsqrt (addf vr (broadcastInDim S256 ![] bcast_S_S256 (constant (F := F) S_ .f32 0x3727C5AC#32))))))
      (rows beta))
    h

/-- The reference's result from its ten arguments' contents. -/
def out (a0 : (⟨S50000x256, .f32⟩ : BufTy).Contents (Elt F)) (a1 : (⟨S800000x1, .f32⟩ : BufTy).Contents (Elt F))
    (a2 a3 : (⟨S800000, .i32⟩ : BufTy).Contents (Elt F))
    (a4 : (⟨S256x256, .f32⟩ : BufTy).Contents (Elt F)) (a5 : (⟨S256, .f32⟩ : BufTy).Contents (Elt F))
    (a6 : (⟨S256x256, .f32⟩ : BufTy).Contents (Elt F)) (a7 a8 a9 : (⟨S256, .f32⟩ : BufTy).Contents (Elt F)) :
    (⟨S50000x256, .f32⟩ : BufTy).Contents (Elt F) :=
  normResid (mlp (hn a0 a1 a2 a3) a4 a5 a6 a7) (hn a0 a1 a2 a3) (mean (mlp (hn a0 a1 a2 a3) a4 a5 a6 a7))
    (var (mlp (hn a0 a1 a2 a3) a4 a5 a6 a7)) a8 a9

end Cert.ReferenceIdeal.RefValue

end
-- ==== Proof.Join.lean ====
/-
  The two programs' terms are one function of the arguments.

  Both programs form the edge-weighted mean of the neighbours' features, and the column mean and variance of the
  perceptron's output, with the same host operations: those three chains are the same functions, for any float
  values, and are never opened.  At the ideal values the first kernel launch's whole-array form is the reference's
  two-layer perceptron — a vector laid out as a one-row array by a reshape is the vector with a leading unit axis
  added — and the second launch's entry-by-entry function is the reference's normalisation and residual: a vector
  repeated along the rows is read at the entry's column, the host's and the kernel's reciprocal square roots are one
  function on the extended reals, and the operations come in the same order on both sides.
-/
import proofs.«159847_j58042188038247_2_alg».proof.Proof.RefTerms
import proofs.«159847_j58042188038247_2_alg».proof.Proof.KTerms
import proofs.«159847_j58042188038247_2_alg».proof.Proof.KRegion0
import proofs.«159847_j58042188038247_2_alg».proof.Proof.KRegion1

set_option maxRecDepth 16384

noncomputable section

namespace Cert.Proof.Join

open Idealize.ShloMosaic Idealize.ShloMosaic.ValueIdx
open Cert.KernelIdeal Cert.KernelIdeal.Facts₀ Cert.KernelIdeal.Facts Cert.Bridge

section AnyFloat

variable {F : FTy → Type} [FloatOps F]

/-- The edge-weighted mean of the neighbours' features: the same operations in both programs. -/
theorem hn_eq (a0 : (⟨S50000x256, .f32⟩ : BufTy).Contents (Elt F)) (a1 : (⟨S800000x1, .f32⟩ : BufTy).Contents (Elt F))
    (a2 a3 : (⟨S800000, .i32⟩ : BufTy).Contents (Elt F)) :
    Cert.KernelIdeal.KTerms.hn a0 a1 a2 a3 = Cert.ReferenceIdeal.RefValue.hn a0 a1 a2 a3 := rfl

/-- Each feature's mean over the rows: the same operations in both programs. -/
theorem mean_eq (x : (⟨S50000x256, .f32⟩ : BufTy).Contents (Elt F)) :
    Cert.KernelIdeal.KTerms.mean x = Cert.ReferenceIdeal.RefValue.mean x := rfl

/-- Each feature's variance over the rows: the same operations in both programs. -/
theorem var_eq (x : (⟨S50000x256, .f32⟩ : BufTy).Contents (Elt F)) :
    Cert.KernelIdeal.KTerms.var x = Cert.ReferenceIdeal.RefValue.var x := rfl

end AnyFloat

/-- A vector with a leading unit axis added, read in the row of an entry of a taller array: the vector's entry in
    that column. -/
theorem rowOfVec_apply {N C : Nat} {φ : FTy} (v : FVec Ideal ⟨1, ![C]⟩ φ)
    (hb : (⟨1, ![C]⟩ : Shape).BroadcastsInDim ⟨2, ![1, C]⟩ ![1]) (i : (⟨2, ![N, C]⟩ : Shape).Idx) :
    broadcastInDim ⟨2, ![1, C]⟩ ![1] hb v (rowZero i) = v (ix1 (i 1)) :=
  broadcastInDim_apply ![1] hb v (rowZero i) (ix1 (i 1)) (fun a => by
    match a with
    | ⟨0, _⟩ =>
      show (i 1).val = if C = 1 then 0 else (i 1).val
      have hlt : (i 1).val < C := (i 1).isLt
      split_ifs with hC
      · omega
      · rfl)

/-- The first launch's whole-array form is the reference's two-layer perceptron. -/
theorem mlp_eq (h : FVec Ideal S50000x256 .f32) (W1 W2 : FVec Ideal S256x256 .f32) (b1 b2 : FVec Ideal S256 .f32) :
    Cert.KernelIdeal.KValue.mlpHost Cert.ReferenceIdeal.dot_S50000x256_S256x256_S50000x256_1_0_0_1_n_n
        Cert.ReferenceIdeal.Facts₀.bcast_S1x256_S50000x256_0_1 Cert.ReferenceIdeal.Facts₀.bcast_S_S50000x256 h
        (transpose S256x256 [1, 0] W1 transposes_S256x256_S256x256_1_0) (shapeCast S1x256 b1 shapeCasts_S256_S1x256)
        (transpose S256x256 [1, 0] W2 transposes_S256x256_S256x256_1_0) (shapeCast S1x256 b2 shapeCasts_S256_S1x256)
      = Cert.ReferenceIdeal.RefValue.mlp (F := Ideal) h W1 b1 W2 b2 := by
  rw [reshapeRow_eq b1 shapeCasts_S256_S1x256 Cert.ReferenceIdeal.Facts₀.bcast_S256_S1x256_1,
    reshapeRow_eq b2 shapeCasts_S256_S1x256 Cert.ReferenceIdeal.Facts₀.bcast_S256_S1x256_1]
  rfl

/-- The second launch's entry-by-entry function is the reference's normalisation and residual. -/
theorem norm_eq (X H : FVec Ideal S50000x256 .f32) (mu vr ga be : FVec Ideal S256 .f32) :
    Cert.KernelIdeal.KValue.normAt X H (shapeCast S1x256 mu shapeCasts_S256_S1x256) (shapeCast S1x256 vr shapeCasts_S256_S1x256)
        (shapeCast S1x256 ga shapeCasts_S256_S1x256) (shapeCast S1x256 be shapeCasts_S256_S1x256)
      = Cert.ReferenceIdeal.RefValue.normResid (F := Ideal) X H mu vr ga be := by
  funext i
  rw [reshapeRow_eq mu shapeCasts_S256_S1x256 Cert.ReferenceIdeal.Facts₀.bcast_S256_S1x256_1,
    reshapeRow_eq vr shapeCasts_S256_S1x256 Cert.ReferenceIdeal.Facts₀.bcast_S256_S1x256_1,
    reshapeRow_eq ga shapeCasts_S256_S1x256 Cert.ReferenceIdeal.Facts₀.bcast_S256_S1x256_1,
    reshapeRow_eq be shapeCasts_S256_S1x256 Cert.ReferenceIdeal.Facts₀.bcast_S256_S1x256_1]
  unfold Cert.KernelIdeal.KValue.normAt Cert.ReferenceIdeal.RefValue.normResid Cert.ReferenceIdeal.RefValue.rows
  rw [addf_apply, addf_apply, mulf_apply, mulf_apply, subf_apply,
    hostStretchRow_apply, hostStretchRow_apply, hostStretchRow_apply, hostStretchRow_apply,
    rowOfVec_apply, rowOfVec_apply, rowOfVec_apply, rowOfVec_apply, rowOfVec_apply]
  have hE : ∀ k, broadcastInDim Cert.ReferenceIdeal.S256 ![] Cert.ReferenceIdeal.Facts₀.bcast_S_S256
      (constant (F := Ideal) Cert.ReferenceIdeal.S_ .f32 0x3727C5AC#32) k = Ideal.ofBits .f32 0x3727C5AC#32 :=
    fun k => broadcastInDim_apply ![] _ _ k ix0 (fun a => a.elim0)
  refine congrArg (fun z => ga (ix1 (i 1)) * (X i - mu (ix1 (i 1))) * z + be (ix1 (i 1)) + H i) ?_
  show Ideal.rsqrt (vr (ix1 (i 1)) + Ideal.ofBits .f32 0x3727C5AC#32)
    = Ideal.rsqrt (vr (ix1 (i 1)) + broadcastInDim Cert.ReferenceIdeal.S256 ![] Cert.ReferenceIdeal.Facts₀.bcast_S_S256
        (constant (F := Ideal) Cert.ReferenceIdeal.S_ .f32 0x3727C5AC#32) (ix1 (i 1)))
  rw [hE]

end Cert.Proof.Join

end
-- ==== Proof.KFinal.lean ====
/-
  The idealized kernel's result as the reference's function of the launch memory.

  The result buffer ends at the second launch's output array: the normalisation-and-residual function of what that
  launch finds.  It finds the first launch's output — the two-layer perceptron of what THAT launch finds —, the
  feature array (an input of the first launch, so unchanged by it), the column mean and variance of the first
  launch's output as one-row arrays, and the scale and shift as one-row arrays; the first launch finds the feature
  array, the transposed weights and the biases as one-row arrays.  Substituting, and joining each piece with the
  reference's, gives the reference's value of the same ten arguments.
-/
import proofs.«159847_j58042188038247_2_alg».proof.Proof.KRun
import proofs.«159847_j58042188038247_2_alg».proof.Proof.KHost
import proofs.«159847_j58042188038247_2_alg».proof.Proof.KRegion0
import proofs.«159847_j58042188038247_2_alg».proof.Proof.KRegion1
import proofs.«159847_j58042188038247_2_alg».proof.Proof.Join

set_option maxRecDepth 16384

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.KernelIdeal.Facts₀ Cert.KernelIdeal.Facts

variable (m : (ℓ : Loc nD τ sig) → Buf (Elt Ideal) ℓ) (ρ : Dev nD → PrngReg)

/-! ## What the first launch finds -/

theorem V3_v24 (c : Dev nD) : V3 m ρ c main_v24
    = KTerms.hn (m ((c : Thread nD τ).loc main_arg0)) (m ((c : Thread nD τ).loc main_arg1)) (m ((c : Thread nD τ).loc main_arg2)) (m ((c : Thread nD τ).loc main_arg3)) :=
  KHost.head_v24 (W0 m ρ c)
theorem V3_v25 (c : Dev nD) : V3 m ρ c main_v25
    = transpose S256x256 [1, 0] (m ((c : Thread nD τ).loc main_arg4)) Facts₀.transposes_S256x256_S256x256_1_0 :=
  KHost.head_v25 (W0 m ρ c)
theorem V3_v26 (c : Dev nD) : V3 m ρ c main_v26
    = transpose S256x256 [1, 0] (m ((c : Thread nD τ).loc main_arg6)) Facts₀.transposes_S256x256_S256x256_1_0 :=
  KHost.head_v26 (W0 m ρ c)
theorem V3_v27 (c : Dev nD) : V3 m ρ c main_v27 = shapeCast S1x256 (m ((c : Thread nD τ).loc main_arg5)) Facts₀.shapeCasts_S256_S1x256 :=
  KHost.head_v27 (W0 m ρ c)
theorem V3_v28 (c : Dev nD) : V3 m ρ c main_v28 = shapeCast S1x256 (m ((c : Thread nD τ).loc main_arg7)) Facts₀.shapeCasts_S256_S1x256 :=
  KHost.head_v28 (W0 m ρ c)

/-- The reference's product record is the plain [50000, 256] x [256, 256] contraction. -/
theorem refDot_plain : Cert.ReferenceIdeal.dot_S50000x256_S256x256_S50000x256_1_0_0_1_n_n = DotDims.plain 50000 256 256 := rfl

/-- The first launch's output array: the two-layer perceptron of the feature array. -/
theorem W4_v31 (c : Dev nD) : W4 m ρ c (Proc.devRef .tc main_v31)
    = mlpHost Cert.ReferenceIdeal.dot_S50000x256_S256x256_S50000x256_1_0_0_1_n_n
        Cert.ReferenceIdeal.Facts₀.bcast_S1x256_S50000x256_0_1 Cert.ReferenceIdeal.Facts₀.bcast_S_S50000x256
        (KTerms.hn (m ((c : Thread nD τ).loc main_arg0)) (m ((c : Thread nD τ).loc main_arg1)) (m ((c : Thread nD τ).loc main_arg2)) (m ((c : Thread nD τ).loc main_arg3)))
        (transpose S256x256 [1, 0] (m ((c : Thread nD τ).loc main_arg4)) Facts₀.transposes_S256x256_S256x256_1_0)
        (shapeCast S1x256 (m ((c : Thread nD τ).loc main_arg5)) Facts₀.shapeCasts_S256_S1x256)
        (transpose S256x256 [1, 0] (m ((c : Thread nD τ).loc main_arg6)) Facts₀.transposes_S256x256_S256x256_1_0)
        (shapeCast S1x256 (m ((c : Thread nD τ).loc main_arg7)) Facts₀.shapeCasts_S256_S1x256) := by
  refine (W4_arr m ρ c 5).trans ((final0 (V3 m ρ) Cert.ReferenceIdeal.dot_S50000x256_S256x256_S50000x256_1_0_0_1_n_n refDot_plain
    Cert.ReferenceIdeal.Facts₀.bcast_S1x256_S50000x256_0_1 Cert.ReferenceIdeal.Facts₀.bcast_S_S50000x256 c).trans ?_)
  rw [V3_v24 m ρ c, V3_v25 m ρ c, V3_v26 m ρ c, V3_v27 m ρ c, V3_v28 m ρ c]

/-! ## What the second launch finds -/

theorem V7_v31 (c : Dev nD) : V7 m ρ c main_v31 = W4 m ρ c (Proc.devRef .tc main_v31) :=
  (KHost.mid_kept (W4 m ρ c)).1

/-- The feature array is an input of the first launch: it comes through unchanged. -/
theorem V7_v24 (c : Dev nD) : V7 m ρ c main_v24
    = KTerms.hn (m ((c : Thread nD τ).loc main_arg0)) (m ((c : Thread nD τ).loc main_arg1)) (m ((c : Thread nD τ).loc main_arg2)) (m ((c : Thread nD τ).loc main_arg3)) :=
  ((KHost.mid_kept (W4 m ρ c)).2.1).trans ((W4_arr m ρ c 0).trans
    (((dat0 (V3 m ρ) c).arrAt_in 0 rfl _).trans ((A_eq0 (V3 m ρ) c 0).trans (V3_v24 m ρ c))))

theorem V7_v36 (c : Dev nD) : V7 m ρ c main_v36
    = shapeCast S1x256 (KTerms.mean (W4 m ρ c (Proc.devRef .tc main_v31))) Facts₀.shapeCasts_S256_S1x256 :=
  KHost.mid_v36 (W4 m ρ c)
theorem V7_v37 (c : Dev nD) : V7 m ρ c main_v37
    = shapeCast S1x256 (KTerms.var (W4 m ρ c (Proc.devRef .tc main_v31))) Facts₀.shapeCasts_S256_S1x256 :=
  KHost.mid_v37 (W4 m ρ c)
theorem V7_v29 (c : Dev nD) : V7 m ρ c main_v29 = shapeCast S1x256 (m ((c : Thread nD τ).loc main_arg8)) Facts₀.shapeCasts_S256_S1x256 :=
  ((KHost.mid_kept (W4 m ρ c)).2.2.1).trans ((W4_of_ne m ρ c main_v29 (by decide)).trans (KHost.head_v29 (W0 m ρ c)))
theorem V7_v30 (c : Dev nD) : V7 m ρ c main_v30 = shapeCast S1x256 (m ((c : Thread nD τ).loc main_arg9)) Facts₀.shapeCasts_S256_S1x256 :=
  ((KHost.mid_kept (W4 m ρ c)).2.2.2).trans ((W4_of_ne m ρ c main_v30 (by decide)).trans (KHost.head_v30 (W0 m ρ c)))

/-! ## The result -/

/-- THE RESULT BUFFER ends at the reference's value of the ten argument arrays as launched. -/
theorem result_eq (c : Dev nD) : W8 m ρ c (Proc.devRef .tc main_v38)
    = Cert.ReferenceIdeal.RefValue.out (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 6).trans ((final1 (V7 m ρ) c).trans ?_)
  rw [V7_v31 m ρ c, V7_v24 m ρ c, V7_v36 m ρ c, V7_v37 m ρ c, V7_v29 m ρ c, V7_v30 m ρ c, W4_v31 m ρ c,
    Cert.Proof.Join.hn_eq, Cert.Proof.Join.mlp_eq, Cert.Proof.Join.mean_eq, Cert.Proof.Join.var_eq, Cert.Proof.Join.norm_eq]
  rfl

/-- The idealized kernel's run: the result at the reference's value of the arguments, the arguments unchanged. -/
theorem run : θ_run defs (onTc (τ := τ) (main (F := Ideal))) ⟨m, fun _ => 0, ρ⟩ (fun r => ∀ c : Dev nD,
      r.2.mem ((c.tc : Thread nD τ).loc main_v38)
        = Cert.ReferenceIdeal.RefValue.out (F := Ideal) (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_named m ρ)

end Cert.KernelIdeal.KValue

end
-- ==== Proof.RefOps.lean ====
/-
  The reference's @main as a list of host operations: a straight line of ninety-seven once the four outlined
  functions (the select of the neighbour mean, the positive part twice, the variance with its own select) are
  unfolded at their calls over the calls' buffer records. The line is cut into four stages at the values that cross
  from one to the next: the neighbour mean, the perceptron's output, that output's mean and variance over the nodes.
  Every execution terminates with each buffer at the operations' fold over the launch contents.
-/
import proofs.«159847_j58042188038247_2_alg».proof.Proof.RefTerms
import Idealize.ShloMosaic.Lib.StableHlo.Run

noncomputable section

namespace Cert.ReferenceIdeal.RefRun

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F] [Facts]

/-- The neighbour mean: the source indices, the gathered and weighted messages, their sum and the edge count at each node, the quotient, and the select that puts zero where no edge arrives (the first outlined function, four operations over `main_call0`). -/
abbrev opsA : List (HloOp τ sig (Elt F)) :=
  [ StableHlo.nullary main_c (constantI S_ 32 0#32),
    StableHlo.unary main_c main_v0 (broadcastInDim S800000 ![] bcast_S_S800000 : (⟨S_, .i32⟩ : BufTy).Contents (Elt F) → (⟨S800000, .i32⟩ : BufTy).Contents (Elt F)),
    StableHlo.binary main_arg2 main_v0 main_v1 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v2 (broadcastInDim S800000 ![] bcast_S_S800000 : (⟨S_, .i32⟩ : BufTy).Contents (Elt F) → (⟨S800000, .i32⟩ : BufTy).Contents (Elt F)),
    StableHlo.binary main_arg2 main_v2 main_v3 (addi : (⟨S800000, .i32⟩ : BufTy).Contents (Elt F) → (⟨S800000, .i32⟩ : BufTy).Contents (Elt F) → (⟨S800000, .i32⟩ : BufTy).Contents (Elt F)),
    StableHlo.ternary main_v1 main_v3 main_arg2 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v4 main_v5 (broadcastInDim S800000x1 ![0] bcast_S800000_S800000x1_0 : (⟨S800000, .i32⟩ : BufTy).Contents (Elt F) → (⟨S800000x1, .i32⟩ : BufTy).Contents (Elt F)),
    StableHlo.binary main_arg0 main_v5 main_v6 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.unary main_arg1 main_v7 (broadcastInDim S800000x256 ![0, 1] bcast_S800000x1_S800000x256_0_1 : (⟨S800000x1, .f32⟩ : BufTy).Contents (Elt F) → (⟨S800000x256, .f32⟩ : BufTy).Contents (Elt F)),
    StableHlo.binary main_v6 main_v7 main_v8 (mulf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v9 (broadcastInDim S50000x256 ![] bcast_S_S50000x256 : (⟨S_, .f32⟩ : BufTy).Contents (Elt F) → (⟨S50000x256, .f32⟩ : BufTy).Contents (Elt F)),
    StableHlo.unary main_arg3 main_v10 (broadcastInDim S800000x1 ![0] bcast_S800000_S800000x1_0 : (⟨S800000, .i32⟩ : BufTy).Contents (Elt F) → (⟨S800000x1, .i32⟩ : BufTy).Contents (Elt F)),
    StableHlo.ternary main_v9 main_v10 main_v8 main_v11 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_1 (constant S_ .f32 0x3F800000#32),
    StableHlo.unary main_cst_1 main_v12 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_arg3 main_v14 (broadcastInDim S800000x1 ![0] bcast_S800000_S800000x1_0 : (⟨S800000, .i32⟩ : BufTy).Contents (Elt F) → (⟨S800000x1, .i32⟩ : BufTy).Contents (Elt F)),
    StableHlo.ternary main_v13 main_v14 main_v12 main_v15 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.nullary main_cst_3 (constant S_ .f32 0x00000000#32),
    StableHlo.unary main_cst_3 main_v17 (broadcastInDim S50000x1 ![] bcast_S_S50000x1 : (⟨S_, .f32⟩ : BufTy).Contents (Elt F) → (⟨S50000x1, .f32⟩ : BufTy).Contents (Elt F)),
    StableHlo.binary main_v16 main_v17 main_v18 (cmpf .ogt : (⟨S50000x1, .f32⟩ : BufTy).Contents (Elt F) → (⟨S50000x1, .f32⟩ : BufTy).Contents (Elt F) → (⟨S50000x1, .i1⟩ : BufTy).Contents (Elt F)),
    StableHlo.nullary main_cst_4 (constant S_ .f32 0x3F800000#32),
    StableHlo.unary main_cst_4 main_v19 (broadcastInDim S50000 ![] bcast_S_S50000 : (⟨S_, .f32⟩ : BufTy).Contents (Elt F) → (⟨S50000, .f32⟩ : BufTy).Contents (Elt F)),
    StableHlo.binary main_v15 main_v19 main_v20 (maximumf : (⟨S50000, .f32⟩ : BufTy).Contents (Elt F) → (⟨S50000, .f32⟩ : BufTy).Contents (Elt F) → (⟨S50000, .f32⟩ : BufTy).Contents (Elt F)),
    StableHlo.unary main_v20 main_v21 (broadcastInDim S50000x1 ![0] bcast_S50000_S50000x1_0 : (⟨S50000, .f32⟩ : BufTy).Contents (Elt F) → (⟨S50000x1, .f32⟩ : BufTy).Contents (Elt F)),
    StableHlo.unary main_v21 main_v22 (broadcastInDim S50000x256 ![0, 1] bcast_S50000x1_S50000x256_0_1 : (⟨S50000x1, .f32⟩ : BufTy).Contents (Elt F) → (⟨S50000x256, .f32⟩ : BufTy).Contents (Elt F)),
    StableHlo.binary main_v11 main_v22 main_v23 (Host.divf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x00000000#32),
    StableHlo.TRef.unary (.of main_cst_5 : StableHlo.TRef sig ⟨S_, .f32⟩) main_call0.v0 id,
    StableHlo.TRef.unary (.of main_v18 : StableHlo.TRef sig ⟨S50000x1, .i1⟩) main_call0.v1 (broadcastInDim S50000x256 ![0, 1] bcast_S50000x1_S50000x256_0_1),
    StableHlo.TRef.unary main_call0.v0 main_call0.v2 (broadcastInDim S50000x256 ![] bcast_S_S50000x256),
    StableHlo.TRef.ternary main_call0.v1 (.of main_v23 : StableHlo.TRef sig ⟨S50000x256, .f32⟩) main_call0.v2 main_call0.v3 select ]

/-- The perceptron: each layer the transposed weights, the product, the bias repeated along the rows, the sum, and the positive part (the second outlined function, three operations over `main_call1`, then over `main_call2`). -/
abbrev opsB : List (HloOp τ sig (Elt F)) :=
  [ StableHlo.unary main_arg4 main_v25 ((transpose S256x256 [1, 0] · transposes_S256x256_S256x256_1_0) : (⟨S256x256, .f32⟩ : BufTy).Contents (Elt F) → (⟨S256x256, .f32⟩ : BufTy).Contents (Elt F)),
    StableHlo.binary main_v24 main_v25 main_v26 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg5 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S50000x256 ![0, 1] bcast_S1x256_S50000x256_0_1 : (⟨S1x256, .f32⟩ : BufTy).Contents (Elt F) → (⟨S50000x256, .f32⟩ : BufTy).Contents (Elt F)),
    StableHlo.binary main_v26 main_v28 main_v29 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v29 : StableHlo.TRef sig ⟨S50000x256, .f32⟩) main_call1.v0 main_call1.v1 maximumf,
    StableHlo.unary main_arg6 main_v31 ((transpose S256x256 [1, 0] · transposes_S256x256_S256x256_1_0) : (⟨S256x256, .f32⟩ : BufTy).Contents (Elt F) → (⟨S256x256, .f32⟩ : BufTy).Contents (Elt F)),
    StableHlo.binary main_v30 main_v31 main_v32 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S50000x256 ![0, 1] bcast_S1x256_S50000x256_0_1 : (⟨S1x256, .f32⟩ : BufTy).Contents (Elt F) → (⟨S50000x256, .f32⟩ : BufTy).Contents (Elt F)),
    StableHlo.binary main_v32 main_v34 main_v35 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v35 : StableHlo.TRef sig ⟨S50000x256, .f32⟩) main_call2.v0 main_call2.v1 maximumf ]

/-- The mean over the nodes, then the variance (the third outlined function, nineteen operations over `main_call3`, and its own select, three over `main_call3.call0`). -/
abbrev opsC : List (HloOp τ sig (Elt F)) :=
  [ StableHlo.nullary main_cst_6 (constant S_ .f32 0x00000000#32),
    StableHlo.binary main_v36 main_cst_6 main_v37 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_7 (constant S_ .f32 0x47435000#32),
    StableHlo.unary main_cst_7 main_v38 (broadcastInDim S256 ![] bcast_S_S256 : (⟨S_, .f32⟩ : BufTy).Contents (Elt F) → (⟨S256, .f32⟩ : BufTy).Contents (Elt F)),
    StableHlo.binary main_v37 main_v38 main_v39 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32),
    StableHlo.TRef.nullary main_call3.cst (constant S_ .f32 0x00000000#32),
    StableHlo.TRef.binary (.of main_v36 : StableHlo.TRef sig ⟨S50000x256, .f32⟩) main_call3.cst main_call3.v0 (fun x v => Host.reduceAdd x v reducesTo_S50000x256_S256_d0 h_S_),
    StableHlo.TRef.unary main_call3.v0 main_call3.v1 (broadcastInDim S1x256 ![1] bcast_S256_S1x256_1),
    StableHlo.TRef.nullary main_call3.cst_0 (constant S_ .f32 0x47435000#32),
    StableHlo.TRef.unary main_call3.cst_0 main_call3.v2 (broadcastInDim S1x256 ![] bcast_S_S1x256),
    StableHlo.TRef.binary main_call3.v1 main_call3.v2 main_call3.v3 Host.divf,
    StableHlo.TRef.unary main_call3.v3 main_call3.v4 (broadcastInDim S50000x256 ![0, 1] bcast_S1x256_S50000x256_0_1),
    StableHlo.TRef.binary (.of main_v36 : StableHlo.TRef sig ⟨S50000x256, .f32⟩) main_call3.v4 main_call3.v5 subf,
    StableHlo.TRef.binary main_call3.v5 main_call3.v5 main_call3.v6 mulf,
    StableHlo.TRef.unary (.of main_c_8 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x256_S256_d0 h_S_),
    StableHlo.TRef.unary main_call3.v8 main_call3.v10 (broadcastInDim S256 ![] bcast_S_S256),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S256 ![] bcast_S_S256),
    StableHlo.TRef.ternary main_call3.v12 main_call3.v11 main_call3.call0.v1 main_call3.call0.v2 (fun p a b => select (broadcastInDim S256 ![] bcast_S_S256 p) a b) ]

/-- The normalisation, scale and shift, and the residual sum. -/
abbrev opsD : List (HloOp τ sig (Elt F)) :=
  [ StableHlo.unary main_v39 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S50000x256 ![0, 1] bcast_S1x256_S50000x256_0_1 : (⟨S1x256, .f32⟩ : BufTy).Contents (Elt F) → (⟨S50000x256, .f32⟩ : BufTy).Contents (Elt F)),
    StableHlo.binary main_v36 main_v42 main_v43 (subf : (⟨S50000x256, .f32⟩ : BufTy).Contents (Elt F) → (⟨S50000x256, .f32⟩ : BufTy).Contents (Elt F) → (⟨S50000x256, .f32⟩ : BufTy).Contents (Elt F)),
    StableHlo.unary main_arg8 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v43 main_v46 (mulf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x3727C5AC#32),
    StableHlo.unary main_cst_9 main_v47 (broadcastInDim S256 ![] bcast_S_S256 : (⟨S_, .f32⟩ : BufTy).Contents (Elt F) → (⟨S256, .f32⟩ : BufTy).Contents (Elt F)),
    StableHlo.binary main_v40 main_v47 main_v48 (addf : (⟨S256, .f32⟩ : BufTy).Contents (Elt F) → (⟨S256, .f32⟩ : BufTy).Contents (Elt F) → (⟨S256, .f32⟩ : BufTy).Contents (Elt F)),
    StableHlo.unary main_v48 main_v49 (Host.rsqrt : (⟨S256, .f32⟩ : BufTy).Contents (Elt F) → (⟨S256, .f32⟩ : BufTy).Contents (Elt F)),
    StableHlo.unary main_v49 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v46 main_v51 main_v52 (mulf : (⟨S50000x256, .f32⟩ : BufTy).Contents (Elt F) → (⟨S50000x256, .f32⟩ : BufTy).Contents (Elt F) → (⟨S50000x256, .f32⟩ : BufTy).Contents (Elt F)),
    StableHlo.unary main_arg9 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S50000x256 ![0, 1] bcast_S1x256_S50000x256_0_1 : (⟨S1x256, .f32⟩ : BufTy).Contents (Elt F) → (⟨S50000x256, .f32⟩ : BufTy).Contents (Elt F)),
    StableHlo.binary main_v52 main_v54 main_v55 (addf : (⟨S50000x256, .f32⟩ : BufTy).Contents (Elt F) → (⟨S50000x256, .f32⟩ : BufTy).Contents (Elt F) → (⟨S50000x256, .f32⟩ : BufTy).Contents (Elt F)),
    StableHlo.binary main_v55 main_v24 main_v56 (addf : (⟨S50000x256, .f32⟩ : BufTy).Contents (Elt F) → (⟨S50000x256, .f32⟩ : BufTy).Contents (Elt F) → (⟨S50000x256, .f32⟩ : BufTy).Contents (Elt F)) ]

/-- @main's ninety-seven operations in order, the calls unfolded. -/
abbrev ops : List (HloOp τ sig (Elt F)) := opsA ++ opsB ++ opsC ++ opsD

-- ninety-seven binds re-associated: the rewrite under the chain recurses once per statement
set_option maxRecDepth 4096 in
set_option maxHeartbeats 4000000 in
/-- @main is that straight line: the functions' definitions unfolded at their calls and the records at their fields,
    both sides are one chain of steps once sequencing is reassociated. -/
theorem main_eq (c : Dev nD) : main (F := F) c = seq ops := by
  simp only [main, main_part0, main_part1, fn_where.body, fn_relu.body, fn_var.body, fn_where_0.body,
    ops, opsA, opsB, opsC, opsD, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., nullary_bufs_sub .., unary_bufs_sub .., unary_bufs_sub .., unary_bufs_sub .., ternary_bufs_sub ..⟩

theorem opsB_sub : (opsB : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩

theorem opsD_sub : (opsD : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with ((h | h) | h) | h
    · exact List.forall_iff_forall_mem.mp opsA_sub op h
    · exact List.forall_iff_forall_mem.mp opsB_sub op h
    · exact List.forall_iff_forall_mem.mp opsC_sub op h
    · exact List.forall_iff_forall_mem.mp opsD_sub op h

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/-
  The reference's run, read back: every execution of its @main terminates with the result buffer at `RefValue.out`
  of the ten arguments' launch contents and the arguments unchanged.

  Each stage's fold is read back on its own, over any contents `W`; the whole line's fold is their composition.
  The gather, the two scatters, the reductions and the two matrix products stay folded throughout: the equations
  never look inside them.
-/
import proofs.«159847_j58042188038247_2_alg».proof.Proof.RefOps
import Idealize.ShloMosaic.Lib.Pipeline.Frame

noncomputable section

namespace Cert.ReferenceIdeal.RefRun

open Idealize.ShloMosaic Idealize.ShloMosaic.TcCoe Idealize.ShloMosaic.StableHlo Idealize.SL.Sem
open Cert.ReferenceIdeal Cert.ReferenceIdeal.Facts₀ Cert.ReferenceIdeal.Facts

variable {F : FTy → Type} [FloatOps F] [Facts]

/-! ## Each stage's fold, over any contents

The fold unrolled, each operation's result at its own buffer is its function's value and at any other buffer what was
there (the references told apart by computation); what is left is the stage's term, by unfolding its definition. -/

attribute [local irreducible] Host.gather Host.scatterAdd Host.reduceAdd

/-- After the first stage the select's buffer holds the neighbour mean of the arguments' contents. -/
theorem A_v24 (W : Valuation τ sig (Elt F)) :
    after opsA W (main_v24 : DevRef τ sig)
      = RefValue.hn (W (main_arg0 : DevRef τ sig)) (W (main_arg1 : DevRef τ sig)) (W (main_arg2 : DevRef τ sig)) (W (main_arg3 : DevRef τ sig)) := by
  after_results_simp
  rfl

theorem A_arg4 (W : Valuation τ sig (Elt F)) :
    after opsA W (main_arg4 : DevRef τ sig) = W (main_arg4 : DevRef τ sig) := by
  after_results_simp

theorem A_arg5 (W : Valuation τ sig (Elt F)) :
    after opsA W (main_arg5 : DevRef τ sig) = W (main_arg5 : DevRef τ sig) := by
  after_results_simp

theorem A_arg6 (W : Valuation τ sig (Elt F)) :
    after opsA W (main_arg6 : DevRef τ sig) = W (main_arg6 : DevRef τ sig) := by
  after_results_simp

theorem A_arg7 (W : Valuation τ sig (Elt F)) :
    after opsA W (main_arg7 : DevRef τ sig) = W (main_arg7 : DevRef τ sig) := by
  after_results_simp

theorem A_arg8 (W : Valuation τ sig (Elt F)) :
    after opsA W (main_arg8 : DevRef τ sig) = W (main_arg8 : DevRef τ sig) := by
  after_results_simp

theorem A_arg9 (W : Valuation τ sig (Elt F)) :
    after opsA W (main_arg9 : DevRef τ sig) = W (main_arg9 : DevRef τ sig) := by
  after_results_simp

/-- After the second stage the second positive part's buffer holds the perceptron of the neighbour mean's buffer. -/
theorem B_v36 (W : Valuation τ sig (Elt F)) :
    after opsB W (main_v36 : DevRef τ sig)
      = RefValue.mlp (W (main_v24 : DevRef τ sig)) (W (main_arg4 : DevRef τ sig)) (W (main_arg5 : DevRef τ sig)) (W (main_arg6 : DevRef τ sig)) (W (main_arg7 : DevRef τ sig)) := by
  after_results_simp
  rfl

theorem B_v24 (W : Valuation τ sig (Elt F)) :
    after opsB W (main_v24 : DevRef τ sig) = W (main_v24 : DevRef τ sig) := by
  after_results_simp

theorem B_arg8 (W : Valuation τ sig (Elt F)) :
    after opsB W (main_arg8 : DevRef τ sig) = W (main_arg8 : DevRef τ sig) := by
  after_results_simp

theorem B_arg9 (W : Valuation τ sig (Elt F)) :
    after opsB W (main_arg9 : DevRef τ sig) = W (main_arg9 : DevRef τ sig) := by
  after_results_simp

/-- After the third stage: the mean over the nodes of the perceptron's output, -/
theorem C_v39 (W : Valuation τ sig (Elt F)) :
    after opsC W (main_v39 : DevRef τ sig) = RefValue.mean (W (main_v36 : DevRef τ sig)) := by
  after_results_simp
  rfl

/-- and its variance over the nodes. -/
theorem C_v40 (W : Valuation τ sig (Elt F)) :
    after opsC W (main_v40 : DevRef τ sig) = RefValue.var (W (main_v36 : DevRef τ sig)) := by
  after_results_simp
  rfl

theorem C_v36 (W : Valuation τ sig (Elt F)) :
    after opsC W (main_v36 : DevRef τ sig) = W (main_v36 : DevRef τ sig) := by
  after_results_simp

theorem C_v24 (W : Valuation τ sig (Elt F)) :
    after opsC W (main_v24 : DevRef τ sig) = W (main_v24 : DevRef τ sig) := by
  after_results_simp

theorem C_arg8 (W : Valuation τ sig (Elt F)) :
    after opsC W (main_arg8 : DevRef τ sig) = W (main_arg8 : DevRef τ sig) := by
  after_results_simp

theorem C_arg9 (W : Valuation τ sig (Elt F)) :
    after opsC W (main_arg9 : DevRef τ sig) = W (main_arg9 : DevRef τ sig) := by
  after_results_simp

/-- After the last stage the result buffer holds the normalised, scaled and shifted output plus the residual. -/
theorem D_v56 (W : Valuation τ sig (Elt F)) :
    after opsD W (main_v56 : DevRef τ sig)
      = RefValue.normResid (W (main_v36 : DevRef τ sig)) (W (main_v24 : DevRef τ sig)) (W (main_v39 : DevRef τ sig)) (W (main_v40 : DevRef τ sig)) (W (main_arg8 : DevRef τ sig)) (W (main_arg9 : DevRef τ sig)) := by
  after_results_simp
  rfl

/-! ## The whole line -/

/-- The fold at the result buffer is `RefValue.out` of the arguments' contents: the stages composed. -/
theorem out_eq (V : Valuation τ sig (Elt F)) :
    after ops V (main_v56 : DevRef τ sig)
      = RefValue.out (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig)) := by
  simp only [ops, after_append]
  rw [D_v56, C_v36, C_v24, C_v39, C_v40, C_arg8, C_arg9, B_v36, B_v24, B_arg8, B_arg9, A_v24,
    A_arg4, A_arg5, A_arg6, A_arg7, A_arg8, A_arg9]
  rfl

/-- No operation writes argument 0's buffer. -/
theorem arg0_eq (V : Valuation τ sig (Elt F)) :
    after ops V (main_arg0 : DevRef τ sig) = V (main_arg0 : DevRef τ sig) := by
  simp only [ops, after_append]
  after_results_simp

/-- No operation writes argument 1's buffer. -/
theorem arg1_eq (V : Valuation τ sig (Elt F)) :
    after ops V (main_arg1 : DevRef τ sig) = V (main_arg1 : DevRef τ sig) := by
  simp only [ops, after_append]
  after_results_simp

/-- No operation writes argument 2's buffer. -/
theorem arg2_eq (V : Valuation τ sig (Elt F)) :
    after ops V (main_arg2 : DevRef τ sig) = V (main_arg2 : DevRef τ sig) := by
  simp only [ops, after_append]
  after_results_simp

/-- No operation writes argument 3's buffer. -/
theorem arg3_eq (V : Valuation τ sig (Elt F)) :
    after ops V (main_arg3 : DevRef τ sig) = V (main_arg3 : DevRef τ sig) := by
  simp only [ops, after_append]
  after_results_simp

/-- No operation writes argument 4's buffer. -/
theorem arg4_eq (V : Valuation τ sig (Elt F)) :
    after ops V (main_arg4 : DevRef τ sig) = V (main_arg4 : DevRef τ sig) := by
  simp only [ops, after_append]
  after_results_simp

/-- No operation writes argument 5's buffer. -/
theorem arg5_eq (V : Valuation τ sig (Elt F)) :
    after ops V (main_arg5 : DevRef τ sig) = V (main_arg5 : DevRef τ sig) := by
  simp only [ops, after_append]
  after_results_simp

/-- No operation writes argument 6's buffer. -/
theorem arg6_eq (V : Valuation τ sig (Elt F)) :
    after ops V (main_arg6 : DevRef τ sig) = V (main_arg6 : DevRef τ sig) := by
  simp only [ops, after_append]
  after_results_simp

/-- No operation writes argument 7's buffer. -/
theorem arg7_eq (V : Valuation τ sig (Elt F)) :
    after ops V (main_arg7 : DevRef τ sig) = V (main_arg7 : DevRef τ sig) := by
  simp only [ops, after_append]
  after_results_simp

/-- No operation writes argument 8's buffer. -/
theorem arg8_eq (V : Valuation τ sig (Elt F)) :
    after ops V (main_arg8 : DevRef τ sig) = V (main_arg8 : DevRef τ sig) := by
  simp only [ops, after_append]
  after_results_simp

/-- No operation writes argument 9's buffer. -/
theorem arg9_eq (V : Valuation τ sig (Elt F)) :
    after ops V (main_arg9 : DevRef τ sig) = V (main_arg9 : DevRef τ sig) := by
  simp only [ops, after_append]
  after_results_simp

/-- At the compiled mesh, for any float values, from any memory with zero counters: every weakly fair execution of @main
    terminates with the result buffer at `RefValue.out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v56)
          = RefValue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v56).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c))⟩)
    (run_main m ρ)

end Cert.ReferenceIdeal.RefRun

end
-- ==== Proof.lean ====
/-
  Equivalence of a graph-network layer's kernel program and its reference over the extended reals.

  Both programs form, on the host, the edge-weighted mean hn of the neighbours' features (800000 edges into 50000
  nodes of 256 features).  The kernel program then runs two kernels over blocks of 2000 rows — the two-layer
  perceptron  x = max (max (hn · W1ᵀ + b1, 0) · W2ᵀ + b2, 0)  and, after the host has taken each column's mean μ and
  variance σ² of x, the normalisation with residual  (γ · (x − μ)) · rsqrt (σ² + ε) + β + hn  — where the reference
  computes the same expressions on whole arrays.  At the ideal values a change of float format is the identity, a
  matrix product into a zero accumulator and the host's contraction are the same sum, a row of a product depends only
  on that row of the left factor, and the two reciprocal square roots are one function; the operations come in the
  same order on both sides, so no algebraic law that would need finite entries is used and the precondition is never
  opened.  The idealization rewrote nothing, so the preservation claim is empty.
-/
import proofs.«159847_j58042188038247_2_alg».proof.Defs
import proofs.«159847_j58042188038247_2_alg».proof.Proof.Gen.Kernel
import proofs.«159847_j58042188038247_2_alg».proof.Proof.Gen.Kernel.Frame
import proofs.«159847_j58042188038247_2_alg».proof.Proof.Gen.KernelIdeal
import proofs.«159847_j58042188038247_2_alg».proof.Proof.Gen.KernelIdeal.Frame
import proofs.«159847_j58042188038247_2_alg».proof.Proof.Gen.ReferenceIdeal
import proofs.«159847_j58042188038247_2_alg».proof.Proof.Gen.Pre_finite_inputs
import proofs.«159847_j58042188038247_2_alg».proof.Proof.KFinal
import proofs.«159847_j58042188038247_2_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the reference's value of the argument arrays, which agree. -/
theorem algebraic : Cert.algebraic_KernelIdeal_ReferenceIdeal := by
  intro m ρ m' ρ' _ hagree
  refine ⟨fun c => Cert.ReferenceIdeal.RefValue.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun r h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
